-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 65
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S128x128, .f32⟩
  | .hbm, ⟨30, _⟩ => ⟨S128x128, .f32⟩
  | .hbm, ⟨31, _⟩ => ⟨S100000x128, .bf16⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .bf16⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x128, .f32⟩
  | .hbm, ⟨47, _⟩ => ⟨S100000x128, .bf16⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .bf16⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S1x128, .f32⟩
  | .hbm, ⟨63, _⟩ => ⟨S1x64, .f32⟩
  | .hbm, ⟨64, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .bf16 = 32 ∨ (Rect.block (s := S100000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S128x128, .f32⟩
  | .hbm, ⟨48, _⟩ => ⟨S100000x128, .f32⟩
  | .hbm, ⟨49, _⟩ => ⟨S1600000x1, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S128x128, .f32⟩
  | .hbm, ⟨72, _⟩ => ⟨S100000x128, .f32⟩
  | .hbm, ⟨73, _⟩ => ⟨S1600000x1, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S1600000x128, .f32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call1_cst : Ref sig .tc := ⟨.hbm, 68, rfl⟩
abbrev main_call1_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x128_S128x128_1_0 : S128x128.Transposes [1, 0] S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named.

  The program is three kernel regions among stretches of host operations. Its frame is known: from any memory every
  weakly fair execution terminates without a fault, and at the end every buffer that outlives the regions holds what the
  fold of the segments leaves in it (the contents `W8 m ρ c` at the last boundary). The frame's statement keeps only the
  argument arrays of that; here the same launch is made and the RESULT array is read off the last boundary as well:
  at the end `main_v43` holds `W8 m ρ c` at its buffer, and the arguments are as launched.
-/
import proofs.«113423_j44839458570483_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel terminates, nothing faulting, with the result array at the
    last boundary's contents and the argument arrays as launched. -/
theorem run_result : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.GcnSpec.lean ====
/-
  The mathematics of the certificate, with no program in sight.

  A graph convolution over N nodes and E directed edges. Edge e carries a source node and a target node; the
  in-degree of a node is the number of edges that target it, and `dis v` is deg(v)^(-1/2), or 0 at a node of degree 0.
  One layer sends a node table H : [N, C] to
      agg v c = ∑_{e targets v} (dis (src e) · dis v) · H (src e) c.
  The reference computes exactly that: it multiplies each gathered row by the edge's coefficient and adds the rows up at
  their targets. The kernel moves the node factors out of the edge sum: it scales the table once, R p q = H p q · dis p,
  adds the gathered rows of R up, and multiplies the sum at node v by dis v afterwards,
      dis v · ∑_{e targets v} R (src e) c.
  The two agree term by term by commutativity and associativity of the product, and the outer factor distributes over
  the edge sum because every quantity involved is a real number (on the extended reals the distributive law fails at
  infinities, so this is where finiteness of the inputs is used).

  This file fixes the vocabulary: the dimension records of the three index operations involved (rows of a table
  gathered at a column of start indices, entries of a vector gathered likewise, rows of updates added into a table at a
  column of targets); the dense pieces of the three kernels as functions of whole arrays, entry by entry; and the
  predicate "every entry is a real number".
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- Every entry of the array is (the image of) a real number. -/
def RealArr {ι : Type} (f : ι → EReal) : Prop := ∀ i, ∃ y : ℝ, f i = (y : EReal)

/-! ## The three index operations' dimension records -/

/-- Rows of updates `[E, C]` added into a table `[N, C]` at a column `[E, 1]` of target rows: update `(e, c)` goes to
    `(target e, c)`, and is dropped when the target is not a row of the table. -/
abbrev rowsScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Rows of a table `[N, C]` gathered at a column `[E, 1]` of start rows: result `(e, c)` is the table at
    `(start e clamped into the table, c)`. -/
abbrev rowsGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entries of a vector `[N]` gathered at a column `[E, 1]` of start positions: result `e` is the vector at
    `start e` clamped into the vector. -/
abbrev takeGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A start index read signed and clamped into `[0, N − 1]`: the row a gather reads. -/
def clampRow {N : Nat} (hN : 0 < N) (b : BitVec 32) : Fin N := ⟨min b.toInt.toNat (N - 1), by omega⟩

/-! ## The dense pieces, entry by entry -/

variable {N K C : Nat}

/-- Entry `(p, q)` of the product of a table `X : [N, K]` and a matrix `W : [K, C]`. -/
def dotAt (X : (⟨2, ![N, K]⟩ : Shape).Idx → EReal) (W : (⟨2, ![K, C]⟩ : Shape).Idx → EReal) (p : Fin N) (q : Fin C) : EReal :=
  ∑ k : Fin K, X (ix2 p k) * W (ix2 k q)

/-- Entry `(p, k)` of the activation: the aggregate scaled by the node's factor, shifted by the bias, clipped at 0. -/
def actAt (A : (⟨2, ![N, K]⟩ : Shape).Idx → EReal) (d : (⟨2, ![N, 1]⟩ : Shape).Idx → EReal)
    (b : (⟨2, ![1, K]⟩ : Shape).Idx → EReal) (p : Fin N) (k : Fin K) : EReal :=
  max (d (ix2 p (0 : Fin 1)) * A (ix2 p k) + b (ix2 (0 : Fin 1) k)) 0

/-- The activation as an array. -/
def actArr (A : (⟨2, ![N, K]⟩ : Shape).Idx → EReal) (d : (⟨2, ![N, 1]⟩ : Shape).Idx → EReal)
    (b : (⟨2, ![1, K]⟩ : Shape).Idx → EReal) : (⟨2, ![N, K]⟩ : Shape).Idx → EReal :=
  fun j => actAt A d b (j 0) (j 1)

/-- The first kernel's table: the product's rows scaled by the node factors. -/
def G0 (X : (⟨2, ![N, K]⟩ : Shape).Idx → EReal) (W : (⟨2, ![K, C]⟩ : Shape).Idx → EReal)
    (d : (⟨2, ![N, 1]⟩ : Shape).Idx → EReal) : (⟨2, ![N, C]⟩ : Shape).Idx → EReal :=
  fun j => dotAt X W (j 0) (j 1) * d (ix2 (j 0) (0 : Fin 1))

/-- The second kernel's table: the activation times the matrix, rows scaled by the node factors. -/
def G1 (A : (⟨2, ![N, K]⟩ : Shape).Idx → EReal) (d : (⟨2, ![N, 1]⟩ : Shape).Idx → EReal)
    (b : (⟨2, ![1, K]⟩ : Shape).Idx → EReal) (W : (⟨2, ![K, C]⟩ : Shape).Idx → EReal) : (⟨2, ![N, C]⟩ : Shape).Idx → EReal :=
  fun j => dotAt (actArr A d b) W (j 0) (j 1) * d (ix2 (j 0) (0 : Fin 1))

/-- The third kernel's table: the activation times the matrix, plus the output bias. -/
def G2 (A : (⟨2, ![N, K]⟩ : Shape).Idx → EReal) (d : (⟨2, ![N, 1]⟩ : Shape).Idx → EReal)
    (b : (⟨2, ![1, K]⟩ : Shape).Idx → EReal) (W : (⟨2, ![K, C]⟩ : Shape).Idx → EReal)
    (ob : (⟨2, ![1, C]⟩ : Shape).Idx → EReal) : (⟨2, ![N, C]⟩ : Shape).Idx → EReal :=
  fun j => dotAt (actArr A d b) W (j 0) (j 1) + ob (ix2 (0 : Fin 1) (j 1))

end Cert.Gcn

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.Region0.lean ====
/-
  The first dense kernel, read as one function of whole arrays.

  The kernel walks the node table in twenty blocks of 5000 rows. At block `t` it takes rows `5000 t … 5000 t + 4999` of
  the table `X : [100000, 128]`, the whole matrix `W : [128, 128]`, and the same rows of the column `d : [100000, 1]` of
  node factors, and writes the same rows of the output: entry `(p, q)` of the block is
      (∑ k, X (5000 t + p, k) · W (k, q)) · d (5000 t + p).
  On the extended reals the narrowing of the operands before the product and of the result after it are the identity, and
  the product into a zero accumulator is the plain sum, so that is exactly entry `(5000 t + p, q)` of the table
  `Cert.Gcn.G0 X W d`. The twenty blocks tile the output (row `r` lies in block `r / 5000`), so after the region the
  output array is `G0` of the three arrays the region found.
-/
import proofs.«113423_j44839458570483_2_alg».proof.Proof.Gen.KernelIdeal.Frame
import proofs.«113423_j44839458570483_2_alg».proof.Proof.GcnSpec
import proofs.«113423_j44839458570483_2_alg».proof.Proof.LibPlainDot
import proofs.«113423_j44839458570483_2_alg».proof.Proof.LibKeepdims
import Idealize.ShloMosaic.Lib.Pipeline.Value
import Idealize.ShloMosaic.Lib.ValueLayout

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx

namespace Layer0

/-- Entry `(p, q)` of what the body stores, from the three blocks it loads: row `p` of the first block times column `q`
    of the matrix, scaled by the node factor of row `p`. The format changes are the identity on extended reals, the casts
    to the same shape change nothing, the product into the zero accumulator is the plain sum over the contracted axis, and
    the column of factors is repeated along the row. -/
theorem pay0_apply (x0 : Vec Ideal S5000x128 .f32) (x1 : Vec Ideal S128x128 .f32) (x2 : Vec Ideal S5000x1 .f32)
    (p : Fin 5000) (q : Fin 128) :
    k0_pay1 (F := Ideal) x0 x1 x2 (ix2 p q)
      = (∑ k : Fin 128, x0 (ix2 p k) * x1 (ix2 k q)) * x2 (ix2 p (0 : Fin 1)) := by
  unfold k0_pay1
  show (matmul dot_S5000x128_S128x128_S5000x128_1_0_0_1_n_n none (truncf .bf16 x0 bitsLt_bf16_f32)
          (truncf .bf16 (shapeCast S128x128 x1 shapeCasts_S128x128_S128x128) bitsLt_bf16_f32)
          (constant (F := Ideal) S5000x128 .f32 0x00000000#32)) (ix2 p q)
        * (broadcastTo S5000x128 (shapeCast S5000x1 x2 shapeCasts_S5000x1_S5000x1) broadcasts_S5000x1_S5000x128) (ix2 p q) = _
  rw [shapeCast_self, shapeCast_self]
  refine congrArg₂ (· * ·) ?_ ?_
  · exact PlainDot.matmul_zero_apply dot_S5000x128_S128x128_S5000x128_1_0_0_1_n_n rfl none _ _ (ix2 p q)
  · exact broadcastTo_a1_ab_apply x2 broadcasts_S5000x1_S5000x128 p q

theorem hz : (![0, 0] : Fin 2 → Nat) = fun _ => 0 := funext fun a => by fin_cases a <;> rfl

/-- The block indices, decided once over the twenty grid points: the three row-blocked windows sit at block row `t`,
    block column 0; the matrix's window is the whole matrix at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The table's block at point `t` holds rows `5000 t … 5000 t + 4999` of the table. -/
theorem read_table (c : Dev nD) (t : Fin cfg0.N) (p : Fin 5000) (k : Fin 128) (r : Fin 100000)
    (hr : r.val = t.val * 5000 + p.val) :
    iblk0 V c 0 t (ix2 p k) = (V c main_arg0 : S100000x128.Idx → EReal) (ix2 r k) := by
  obtain ⟨e0, e1, -⟩ := idx_facts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The matrix's block at every point is the whole matrix. -/
theorem read_matrix (c : Dev nD) (t : Fin cfg0.N) (k : Fin 128) (q : Fin 128) :
    iblk0 V c 1 t (ix2 k q) = (V c main_v14 : S128x128.Idx → EReal) (ix2 k q) := by
  obtain ⟨-, -, e2, e3, -⟩ := idx_facts0 t
  show V c main_v14 (((cfg0.win 1).blk t).view.emb (ix2 k q)) = V c main_v14 (ix2 k q)
  refine congrArg (V c main_v14) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The block of node factors at point `t` holds the factors of nodes `5000 t … 5000 t + 4999`. -/
theorem read_factor (c : Dev nD) (t : Fin cfg0.N) (p : Fin 5000) (u : Fin 1) (r : Fin 100000)
    (hr : r.val = t.val * 5000 + p.val) :
    iblk0 V c 2 t (ix2 p u) = (V c main_v13 : S100000x1.Idx → EReal) (ix2 r u) := by
  obtain ⟨-, -, -, -, e4, e5, -⟩ := idx_facts0 t
  show V c main_v13 (((cfg0.win 2).blk t).view.emb (ix2 p u)) = V c main_v13 (ix2 r u)
  refine congrArg (V c main_v13) (funext fun a => Fin.ext ?_)
  match a with
  | ⟨0, _⟩ => show win0_2.index t (0 : Fin 2) * 5000 + 1 * p.val = r.val; omega
  | ⟨1, _⟩ => show win0_2.index t (1 : Fin 2) * 1 + 1 * u.val = u.val; omega

/-- Where entry `(p, q)` of the output's block at point `t` sits in the output table: row `5000 t + p`, column `q`. -/
theorem out_emb (t : Fin cfg0.N) (p : Fin 5000) (q : Fin 128) (r : Fin 100000) (hr : r.val = t.val * 5000 + p.val) :
    (((cfg0.win 3).blk t).view.emb (ix2 p q) : S100000x128.Idx) = ix2 r q := by
  obtain ⟨-, -, -, -, -, -, e6, e7⟩ := idx_facts0 t
  refine funext fun a => Fin.ext ?_
  match a with
  | ⟨0, _⟩ => show win0_3.index t (0 : Fin 2) * 5000 + 1 * p.val = r.val; omega
  | ⟨1, _⟩ => show win0_3.index t (1 : Fin 2) * 128 + 1 * q.val = q.val; omega

/-- The scaled product of whole arrays at row `r`, column `q`, spelt out. -/
theorem G0_apply (X : S100000x128.Idx → EReal) (W : S128x128.Idx → EReal) (d : S100000x1.Idx → EReal)
    (r : Fin 100000) (q : Fin 128) :
    Cert.Gcn.G0 (N := 100000) (K := 128) (C := 128) X W d (ix2 r q)
      = (∑ k : Fin 128, X (ix2 r k) * W (ix2 k q)) * d (ix2 r (0 : Fin 1)) := rfl

/-- What point `t` writes back is block `t` of the scaled product of the whole arrays. -/
theorem flushed0_eq (c : Dev nD) (t : Fin cfg0.N) :
    (dat0 (F := Ideal) V c).flushed 3 t
      = ((cfg0.win 3).blk t).view.read (Elt Ideal)
          (Cert.Gcn.G0 (N := 100000) (K := 128) (C := 128) (V c main_arg0) (V c main_v14) (V c main_v13)) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  have hN : cfg0.N = 20 := N_0
  have ht : t.val < 20 := hN ▸ t.isLt
  let r : Fin 100000 := ⟨t.val * 5000 + p.val, by have := p.isLt; omega⟩
  show k0_pay1 (F := Ideal) (iblk0 V c 0 t) (iblk0 V c 1 t) (iblk0 V c 2 t) (ix2 p q)
      = Cert.Gcn.G0 (N := 100000) (K := 128) (C := 128) (V c main_arg0) (V c main_v14) (V c main_v13)
          (((cfg0.win 3).blk t).view.emb (ix2 p q))
  rw [out_emb t p q r rfl]
  refine (pay0_apply (iblk0 V c 0 t) (iblk0 V c 1 t) (iblk0 V c 2 t) p q).trans ?_
  refine Eq.trans ?_ (G0_apply (V c main_arg0) (V c main_v14) (V c main_v13) r q).symm
  refine congrArg₂ (fun x y : EReal => x * y) (Finset.sum_congr rfl fun k _ => congrArg₂ (fun x y : EReal => x * y) ?_ ?_) ?_
  · exact read_table V c t p k r rfl
  · exact read_matrix V c t k q
  · exact read_factor V c t p 0 r rfl

/-- An entry of the output table is in point `t`'s block exactly when each coordinate is in the block's range. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every entry of the output table is written back: row `r` lies in the block of point `r / 5000`. -/
theorem cover0 (i : S100000x128.Idx) :
    ∃ t : Fin cfg0.N, (cfg0.win 3).flush t = true ∧ i ∈ ((cfg0.win 3).blk t).view.set := by
  have hN : cfg0.N = 20 := N_0
  have hi0 : (i 0).val < 100000 := idx2_lt0 i
  have hi1 : (i 1).val < 128 := idx2_lt1 i
  have ht : (i 0).val / 5000 < cfg0.N := by rw [hN]; omega
  obtain ⟨-, -, -, -, -, -, e6, e7⟩ := idx_facts0 ⟨(i 0).val / 5000, ht⟩
  have e6' : win0_3.index ⟨(i 0).val / 5000, ht⟩ (0 : Fin 2) = (i 0).val / 5000 := e6
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    omega

end Layer0

/-- After the first region the output table is the scaled product of the arrays the region found: entry `(r, q)` is
    row `r` of the table times column `q` of the matrix, times the factor of node `r`. -/
theorem region0_array (V : (c : Dev nD) → (b : Ref sig .tc) → Buf (Elt Ideal) ((c : Thread nD τ).loc b)) (c : Dev nD) :
    (dat0 (F := Ideal) V c).arrAt 3 cfg0.N
      = Cert.Gcn.G0 (N := 100000) (K := 128) (C := 128) (V c main_arg0) (V c main_v14) (V c main_v13) :=
  (dat0 (F := Ideal) V c).arrAt_eq_of_cover 3
    (Cert.Gcn.G0 (N := 100000) (K := 128) (C := 128) (V c main_arg0) (V c main_v14) (V c main_v13))
    (fun t _ => Layer0.flushed0_eq V c t) Layer0.cover0

end Cert.KernelIdeal.RegionValue

end
-- ==== Proof.Region1.lean ====
/-
  The second region's output, as one array.

  The region streams the table in 20 blocks of 5000 rows. At each block it reads the rows of the aggregate and the
  node factors of those rows, the whole bias row and the whole matrix, and stores, for row p and column q of the block,
      (∑ k, max (dis p · agg p k + bias k, 0) · W k q) · dis p.
  Entry by entry this is the specification's table read at row 5000·t + p: first the stored entry is read off the
  block's arithmetic, then each block entry is identified with the array entry it was fetched from, and last the blocks
  written back are seen to tile the array, so the array after the region is the table everywhere.
-/
import proofs.«113423_j44839458570483_2_alg».proof.Proof.Gen.KernelIdeal.Frame
import proofs.«113423_j44839458570483_2_alg».proof.Proof.GcnSpec
import proofs.«113423_j44839458570483_2_alg».proof.Proof.LibPlainDot
import proofs.«113423_j44839458570483_2_alg».proof.Proof.LibKeepdims
import Idealize.ShloMosaic.Lib.ValueLayout
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx

namespace Layer1

/-- One entry of the block the second kernel stores: the activation of the row — the aggregate scaled by the node's
    factor, shifted by the bias, clipped at 0 — times the matrix's column, the sum scaled by the node's factor again.
    The changes of float format are the identity on the extended reals, and the product into the zero accumulator is
    the plain sum over the contracted axis. -/
theorem pay1_apply (d : Vec Ideal S5000x1 .f32) (x : Vec Ideal S5000x128 .f32) (b : Vec Ideal S1x128 .f32)
    (w : Vec Ideal S128x128 .f32) (d' : Vec Ideal S5000x1 .f32) (p : Fin 5000) (q : Fin 128) :
    k1_pay1 (F := Ideal) d x b w d' (ix2 p q)
      = (∑ k : Fin 128, max (d (ix2 p (0 : Fin 1)) * x (ix2 p k) + b (ix2 (0 : Fin 1) k)) 0 * w (ix2 k q))
          * d' (ix2 p (0 : Fin 1)) := by
  unfold k1_pay1
  simp only [truncf, mulf, addf, maximumf, broadcast, Ideal.truncf_def, Ideal.mulf_def, Ideal.addf_def, Ideal.maximumf_def, shapeCast_self]
  refine (congrArg₂ (· * ·) (PlainDot.matmul_zero_apply _ rfl none _ _ (ix2 p q)) (broadcastTo_a1_ab_apply d' _ p q)).trans ?_
  refine congrArg (· * d' (ix2 p (0 : Fin 1))) (Finset.sum_congr rfl fun k _ => ?_)
  show max (broadcastTo S5000x128 d broadcasts_S5000x1_S5000x128 (ix2 p k) * x (ix2 p k)
      + broadcastTo S5000x128 b broadcasts_S1x128_S5000x128 (ix2 p k)) (Ideal.ofBits .f32 0x00000000#32) * w (ix2 k q) = _
  rw [broadcastTo_a1_ab_apply d _ p k, broadcastTo_1b_ab_apply b _ p k, Ideal.ofBits_zero_f32]

/-- The stored entry is the table's entry as soon as the blocks' entries it reads are the arrays' entries of the row. -/
theorem entry1_eq (d : Vec Ideal S5000x1 .f32) (x : Vec Ideal S5000x128 .f32) (b : Vec Ideal S1x128 .f32) (w : Vec Ideal S128x128 .f32)
    (A : (⟨2, ![100000, 128]⟩ : Shape).Idx → EReal) (D : (⟨2, ![100000, 1]⟩ : Shape).Idx → EReal)
    (B : (⟨2, ![1, 128]⟩ : Shape).Idx → EReal) (W : (⟨2, ![128, 128]⟩ : Shape).Idx → EReal)
    (p : Fin 5000) (q : Fin 128) (r : Fin 100000)
    (hd : d (ix2 p (0 : Fin 1)) = D (ix2 r (0 : Fin 1))) (hx : ∀ k : Fin 128, x (ix2 p k) = A (ix2 r k))
    (hb : ∀ k : Fin 128, b (ix2 (0 : Fin 1) k) = B (ix2 (0 : Fin 1) k)) (hw : ∀ k : Fin 128, w (ix2 k q) = W (ix2 k q)) :
    k1_pay1 (F := Ideal) d x b w d (ix2 p q) = Cert.Gcn.G1 (N := 100000) (K := 128) (C := 128) A D B W (ix2 r q) := by
  refine (pay1_apply d x b w d p q).trans ?_
  show _ = (∑ k : Fin 128, max (D (ix2 r (0 : Fin 1)) * A (ix2 r k) + B (ix2 (0 : Fin 1) k)) 0 * W (ix2 k q)) * D (ix2 r (0 : Fin 1))
  rw [hd]
  refine congrArg (· * D (ix2 r (0 : Fin 1))) (Finset.sum_congr rfl fun k _ => ?_)
  rw [hx k, hb k, hw k]

/-! ## From the blocks to the array -/

theorem zero_offsets1 : (![0, 0] : Fin 2 → Nat) = fun _ => 0 := funext fun a => by fin_cases a <;> rfl

/-- The block indices at a grid point, decided over the twenty points: the three row-blocked windows (the aggregate,
    the node factors, the output) are at block (t, 0), the two whole-array windows (the bias row, the matrix) at (0, 0). -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Blocks
variable (V : (c : Dev nD) → (b : Ref sig .tc) → Buf (Elt Ideal) ((c : Thread nD τ).loc b)) (c : Dev nD)

/-- Row p of the aggregate's block at point t is row 5000·t + p of the aggregate. -/
theorem rows_block1_apply (t : Fin cfg1.N) (p : Fin 5000) (k : Fin 128) (r : Fin 100000) (hr : r.val = t.val * 5000 + p.val) :
    (iblk1 V c 0 t : Vec Ideal S5000x128 .f32) (ix2 p k) = V c main_v27 (ix2 r k) := by
  obtain ⟨e0, e1, -⟩ := block_index1 t
  show V c main_v27 (((cfg1.win 0).blk t).view.emb (ix2 p k)) = V c main_v27 (ix2 r k)
  refine congrArg (V c main_v27) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Entry p of the node factors' block at point t is the factor of node 5000·t + p. -/
theorem factor_block1_apply (t : Fin cfg1.N) (p : Fin 5000) (r : Fin 100000) (hr : r.val = t.val * 5000 + p.val) :
    (iblk1 V c 1 t : Vec Ideal S5000x1 .f32) (ix2 p (0 : Fin 1)) = V c main_v13 (ix2 r (0 : Fin 1)) := by
  obtain ⟨-, -, e0, e1, -⟩ := block_index1 t
  show V c main_v13 (((cfg1.win 1).blk t).view.emb (ix2 p (0 : Fin 1))) = V c main_v13 (ix2 r (0 : Fin 1))
  refine congrArg (V c main_v13) (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- The bias row's block is the bias row at every point. -/
theorem bias_block1_apply (t : Fin cfg1.N) (k : Fin 128) :
    (iblk1 V c 2 t : Vec Ideal S1x128 .f32) (ix2 (0 : Fin 1) k) = V c main_v28 (ix2 (0 : Fin 1) k) := by
  obtain ⟨-, -, -, -, e0, e1, -⟩ := block_index1 t
  show V c main_v28 (((cfg1.win 2).blk t).view.emb (ix2 (0 : Fin 1) k)) = V c main_v28 (ix2 (0 : Fin 1) k)
  refine congrArg (V c main_v28) (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

/-- The matrix's block is the matrix at every point. -/
theorem matrix_block1_apply (t : Fin cfg1.N) (k q : Fin 128) :
    (iblk1 V c 3 t : Vec Ideal S128x128 .f32) (ix2 k q) = V c main_v15 (ix2 k q) := by
  obtain ⟨-, -, -, -, -, -, e0, e1, -⟩ := block_index1 t
  show V c main_v15 (((cfg1.win 3).blk t).view.emb (ix2 k q)) = V c main_v15 (ix2 k q)
  refine congrArg (V c main_v15) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- What grid point t writes back is block t of the table: rows 5000·t … 5000·t + 4999. -/
theorem flushed1_eq (t : Fin cfg1.N) :
    (dat1 (F := Ideal) V c).flushed 4 t = ((cfg1.win 4).blk t).view.read (Elt Ideal)
      (Cert.Gcn.G1 (N := 100000) (K := 128) (C := 128) (V c main_v27) (V c main_v13) (V c main_v28) (V c main_v15)) := by
  show (cfg1.win 4).cut (grid1.coords t) ((dat1 V c).after 4 t) = _
  rw [after1_4]
  unfold out1_4
  rw [View.canon_unit_zero zero_offsets1]
  simp only [View.ld_unit_zero (S := S5000x128) zero_offsets1, View.ld_unit_zero (S := S5000x1) zero_offsets1,
    View.ld_unit_zero (S := S1x128) zero_offsets1, View.ld_unit_zero (S := S128x128) zero_offsets1]
  have hN : cfg1.N = 20 := N_1
  have ht : t.val < 20 := by have := t.isLt; omega
  obtain ⟨-, -, -, -, -, -, -, -, e0, e1⟩ := block_index1 t
  funext j
  obtain ⟨p, q, rfl⟩ : ∃ (p : Fin 5000) (q : Fin 128), j = ix2 p q := ⟨j 0, j 1, eq_ix2 j⟩
  have hr : t.val * 5000 + p.val < 100000 := by have := p.isLt; omega
  have hemb : ((cfg1.win 4).blk t).view.emb (ix2 p q) = (ix2 (⟨t.val * 5000 + p.val, hr⟩ : Fin 100000) q : S100000x128.Idx) :=
    funext fun a => Fin.ext (by
      match a with
      | ⟨0, _⟩ => show win1_4.index t (0 : Fin 2) * 5000 + 1 * p.val = t.val * 5000 + p.val; omega
      | ⟨1, _⟩ => show win1_4.index t (1 : Fin 2) * 128 + 1 * q.val = q.val; omega)
  show k1_pay1 (F := Ideal) (iblk1 V c 1 t) (iblk1 V c 0 t) (iblk1 V c 2 t) (iblk1 V c 3 t) (iblk1 V c 1 t) (ix2 p q)
    = Cert.Gcn.G1 (N := 100000) (K := 128) (C := 128) (V c main_v27) (V c main_v13) (V c main_v28) (V c main_v15)
        (((cfg1.win 4).blk t).view.emb (ix2 p q))
  refine Eq.trans ?_ (congrArg (Cert.Gcn.G1 (N := 100000) (K := 128) (C := 128) (V c main_v27) (V c main_v13) (V c main_v28) (V c main_v15)) hemb.symm)
  exact entry1_eq _ _ _ _ _ _ _ _ p q ⟨t.val * 5000 + p.val, hr⟩ (factor_block1_apply V c t p _ rfl)
    (fun k => rows_block1_apply V c t p k _ rfl) (fun k => bias_block1_apply V c t k) (fun k => matrix_block1_apply V c t k q)

end Blocks

/-- A row of the table lies in grid point t's block iff it is one of rows 5000·t … 5000·t + 4999. -/
theorem mem_block1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v29).slice (win1_4.rect t)).set ↔ _
  rw [View.set_slice_whole, Rect.mem_set_unit]
  exact Iff.rfl

/-- Every entry of the table is written back by some grid point: row r by point r / 5000. -/
theorem covered1 (i : S100000x128.Idx) :
    ∃ t : Fin cfg1.N, (cfg1.win 4).flush t = true ∧ i ∈ ((cfg1.win 4).blk t).view.set := by
  have hN : cfg1.N = 20 := N_1
  have h0 : (i 0).val < 100000 := (i 0).isLt
  have h1 : (i 1).val < 128 := (i 1).isLt
  have hlt : (i 0).val / 5000 < cfg1.N := by rw [hN]; omega
  obtain ⟨-, -, -, -, -, -, -, -, e0, e1⟩ := block_index1 ⟨(i 0).val / 5000, hlt⟩
  refine ⟨⟨(i 0).val / 5000, hlt⟩, flush1_4 _, ?_⟩
  rw [mem_block1]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, hlt⟩ (1 : Fin 2) * 128 ≤ (i 1).val
      ∧ (i 1).val < win1_4.index ⟨(i 0).val / 5000, hlt⟩ (1 : Fin 2) * 128 + 128
    rw [e1]; omega

end Layer1

/-- After the second region its output array is the table of the specification: the activation of the aggregate times
    the matrix, each row scaled by its node's factor. -/
theorem region1_array (V : (c : Dev nD) → (b : Ref sig .tc) → Buf (Elt Ideal) ((c : Thread nD τ).loc b)) (c : Dev nD) :
    (dat1 (F := Ideal) V c).arrAt 4 cfg1.N
      = Cert.Gcn.G1 (N := 100000) (K := 128) (C := 128) (V c main_v27) (V c main_v13) (V c main_v28) (V c main_v15) :=
  (dat1 (F := Ideal) V c).arrAt_eq_of_cover 4
    (Cert.Gcn.G1 (N := 100000) (K := 128) (C := 128) (V c main_v27) (V c main_v13) (V c main_v28) (V c main_v15))
    (fun t _ => Layer1.flushed1_eq V c t) Layer1.covered1

end Cert.KernelIdeal.RegionValue

end
-- ==== Proof.Region2.lean ====
/-
  The third region's output, as one array.

  The region streams the table in 20 blocks of 5000 rows. At each block it reads the rows of the aggregate and the
  node factors of those rows, the whole bias row, the whole matrix and the whole output bias row, and stores, for row p
  and column q of the block,
      (∑ k, max (dis p · agg p k + bias k, 0) · W k q) + outbias q.
  Entry by entry this is the specification's table read at row 5000·t + p: first the stored entry is read off the
  block's arithmetic, then each block entry is identified with the array entry it was fetched from, and last the blocks
  written back are seen to tile the array, so the array after the region is the table everywhere.
-/
import proofs.«113423_j44839458570483_2_alg».proof.Proof.Gen.KernelIdeal.Frame
import proofs.«113423_j44839458570483_2_alg».proof.Proof.GcnSpec
import proofs.«113423_j44839458570483_2_alg».proof.Proof.LibPlainDot
import proofs.«113423_j44839458570483_2_alg».proof.Proof.LibKeepdims
import Idealize.ShloMosaic.Lib.ValueLayout
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem Idealize.ShloMosaic.ValueIdx

namespace Layer2

/-- One entry of the block the third kernel stores: the activation of the row — the aggregate scaled by the node's
    factor, shifted by the bias, clipped at 0 — times the matrix's column, plus the output bias of the column. The changes
    of float format are the identity on the extended reals, and the product into the zero accumulator is the plain sum
    over the contracted axis. -/
theorem pay2_apply (d : Vec Ideal S5000x1 .f32) (x : Vec Ideal S5000x128 .f32) (b : Vec Ideal S1x128 .f32)
    (w : Vec Ideal S128x64 .f32) (ob : Vec Ideal S1x64 .f32) (p : Fin 5000) (q : Fin 64) :
    k2_pay1 (F := Ideal) d x b w ob (ix2 p q)
      = (∑ k : Fin 128, max (d (ix2 p (0 : Fin 1)) * x (ix2 p k) + b (ix2 (0 : Fin 1) k)) 0 * w (ix2 k q))
          + ob (ix2 (0 : Fin 1) q) := by
  unfold k2_pay1
  simp only [truncf, mulf, addf, maximumf, broadcast, Ideal.truncf_def, Ideal.mulf_def, Ideal.addf_def, Ideal.maximumf_def, shapeCast_self]
  refine (congrArg₂ (· + ·) (PlainDot.matmul_zero_apply _ rfl none _ _ (ix2 p q)) (broadcastTo_1b_ab_apply ob _ p q)).trans ?_
  refine congrArg (· + ob (ix2 (0 : Fin 1) q)) (Finset.sum_congr rfl fun k _ => ?_)
  show max (broadcastTo S5000x128 d broadcasts_S5000x1_S5000x128 (ix2 p k) * x (ix2 p k)
      + broadcastTo S5000x128 b broadcasts_S1x128_S5000x128 (ix2 p k)) (Ideal.ofBits .f32 0x00000000#32) * w (ix2 k q) = _
  rw [broadcastTo_a1_ab_apply d _ p k, broadcastTo_1b_ab_apply b _ p k, Ideal.ofBits_zero_f32]

/-- The stored entry is the table's entry as soon as the blocks' entries it reads are the arrays' entries of the row. -/
theorem entry2_eq (d : Vec Ideal S5000x1 .f32) (x : Vec Ideal S5000x128 .f32) (b : Vec Ideal S1x128 .f32) (w : Vec Ideal S128x64 .f32)
    (ob : Vec Ideal S1x64 .f32)
    (A : (⟨2, ![100000, 128]⟩ : Shape).Idx → EReal) (D : (⟨2, ![100000, 1]⟩ : Shape).Idx → EReal)
    (B : (⟨2, ![1, 128]⟩ : Shape).Idx → EReal) (W : (⟨2, ![128, 64]⟩ : Shape).Idx → EReal) (O : (⟨2, ![1, 64]⟩ : Shape).Idx → EReal)
    (p : Fin 5000) (q : Fin 64) (r : Fin 100000)
    (hd : d (ix2 p (0 : Fin 1)) = D (ix2 r (0 : Fin 1))) (hx : ∀ k : Fin 128, x (ix2 p k) = A (ix2 r k))
    (hb : ∀ k : Fin 128, b (ix2 (0 : Fin 1) k) = B (ix2 (0 : Fin 1) k)) (hw : ∀ k : Fin 128, w (ix2 k q) = W (ix2 k q))
    (ho : ob (ix2 (0 : Fin 1) q) = O (ix2 (0 : Fin 1) q)) :
    k2_pay1 (F := Ideal) d x b w ob (ix2 p q) = Cert.Gcn.G2 (N := 100000) (K := 128) (C := 64) A D B W O (ix2 r q) := by
  refine (pay2_apply d x b w ob p q).trans ?_
  show _ = (∑ k : Fin 128, max (D (ix2 r (0 : Fin 1)) * A (ix2 r k) + B (ix2 (0 : Fin 1) k)) 0 * W (ix2 k q)) + O (ix2 (0 : Fin 1) q)
  rw [ho]
  refine congrArg (· + O (ix2 (0 : Fin 1) q)) (Finset.sum_congr rfl fun k _ => ?_)
  rw [hd, hx k, hb k, hw k]

/-! ## From the blocks to the array -/

theorem zero_offsets2 : (![0, 0] : Fin 2 → Nat) = fun _ => 0 := funext fun a => by fin_cases a <;> rfl

/-- The block indices at a grid point, decided over the twenty points: the three row-blocked windows (the aggregate,
    the node factors, the output) are at block (t, 0), the three whole-array windows (the bias row, the matrix, the
    output bias row) at (0, 0). -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Blocks
variable (V : (c : Dev nD) → (b : Ref sig .tc) → Buf (Elt Ideal) ((c : Thread nD τ).loc b)) (c : Dev nD)

/-- Row p of the aggregate's block at point t is row 5000·t + p of the aggregate. -/
theorem rows_block2_apply (t : Fin cfg2.N) (p : Fin 5000) (k : Fin 128) (r : Fin 100000) (hr : r.val = t.val * 5000 + p.val) :
    (iblk2 V c 0 t : Vec Ideal S5000x128 .f32) (ix2 p k) = V c main_v40 (ix2 r k) := by
  obtain ⟨e0, e1, -⟩ := block_index2 t
  show V c main_v40 (((cfg2.win 0).blk t).view.emb (ix2 p k)) = V c main_v40 (ix2 r k)
  refine congrArg (V c main_v40) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- Entry p of the node factors' block at point t is the factor of node 5000·t + p. -/
theorem factor_block2_apply (t : Fin cfg2.N) (p : Fin 5000) (r : Fin 100000) (hr : r.val = t.val * 5000 + p.val) :
    (iblk2 V c 1 t : Vec Ideal S5000x1 .f32) (ix2 p (0 : Fin 1)) = V c main_v13 (ix2 r (0 : Fin 1)) := by
  obtain ⟨-, -, e0, e1, -⟩ := block_index2 t
  show V c main_v13 (((cfg2.win 1).blk t).view.emb (ix2 p (0 : Fin 1))) = V c main_v13 (ix2 r (0 : Fin 1))
  refine congrArg (V c main_v13) (funext fun a => Fin.ext ?_)
  match a with
  | ⟨0, _⟩ => show win2_1.index t (0 : Fin 2) * 5000 + 1 * p.val = r.val; omega
  | ⟨1, _⟩ => show win2_1.index t (1 : Fin 2) * 1 + 1 * 0 = 0; omega

/-- The bias row's block is the bias row at every point. -/
theorem bias_block2_apply (t : Fin cfg2.N) (k : Fin 128) :
    (iblk2 V c 2 t : Vec Ideal S1x128 .f32) (ix2 (0 : Fin 1) k) = V c main_v41 (ix2 (0 : Fin 1) k) := by
  obtain ⟨-, -, -, -, e0, e1, -⟩ := block_index2 t
  show V c main_v41 (((cfg2.win 2).blk t).view.emb (ix2 (0 : Fin 1) k)) = V c main_v41 (ix2 (0 : Fin 1) k)
  refine congrArg (V c main_v41) (funext fun a => Fin.ext ?_)
  match a with
  | ⟨0, _⟩ => show win2_2.index t (0 : Fin 2) * 1 + 1 * 0 = 0; omega
  | ⟨1, _⟩ => show win2_2.index t (1 : Fin 2) * 128 + 1 * k.val = k.val; omega

/-- The matrix's block is the matrix at every point. -/
theorem matrix_block2_apply (t : Fin cfg2.N) (k : Fin 128) (q : Fin 64) :
    (iblk2 V c 3 t : Vec Ideal S128x64 .f32) (ix2 k q) = V c main_arg6 (ix2 k q) := by
  obtain ⟨-, -, -, -, -, -, e0, e1, -⟩ := block_index2 t
  show V c main_arg6 (((cfg2.win 3).blk t).view.emb (ix2 k q)) = V c main_arg6 (ix2 k q)
  refine congrArg (V c main_arg6) (funext fun a => Fin.ext ?_)
  match a with
  | ⟨0, _⟩ => show win2_3.index t (0 : Fin 2) * 128 + 1 * k.val = k.val; omega
  | ⟨1, _⟩ => show win2_3.index t (1 : Fin 2) * 64 + 1 * q.val = q.val; omega

/-- The output bias row's block is the output bias row at every point. -/
theorem outbias_block2_apply (t : Fin cfg2.N) (q : Fin 64) :
    (iblk2 V c 4 t : Vec Ideal S1x64 .f32) (ix2 (0 : Fin 1) q) = V c main_v42 (ix2 (0 : Fin 1) q) := by
  obtain ⟨-, -, -, -, -, -, -, -, e0, e1, -⟩ := block_index2 t
  show V c main_v42 (((cfg2.win 4).blk t).view.emb (ix2 (0 : Fin 1) q)) = V c main_v42 (ix2 (0 : Fin 1) q)
  refine congrArg (V c main_v42) (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

/-- What grid point t writes back is block t of the table: rows 5000·t … 5000·t + 4999. -/
theorem flushed2_eq (t : Fin cfg2.N) :
    (dat2 (F := Ideal) V c).flushed 5 t = ((cfg2.win 5).blk t).view.read (Elt Ideal)
      (Cert.Gcn.G2 (N := 100000) (K := 128) (C := 64) (V c main_v40) (V c main_v13) (V c main_v41) (V c main_arg6) (V c main_v42)) := by
  show (cfg2.win 5).cut (grid2.coords t) ((dat2 V c).after 5 t) = _
  rw [after2_5]
  unfold out2_5
  rw [View.canon_unit_zero zero_offsets2]
  simp only [View.ld_unit_zero (S := S5000x128) zero_offsets2, View.ld_unit_zero (S := S5000x1) zero_offsets2,
    View.ld_unit_zero (S := S1x128) zero_offsets2, View.ld_unit_zero (S := S128x64) zero_offsets2,
    View.ld_unit_zero (S := S1x64) zero_offsets2]
  have hN : cfg2.N = 20 := N_2
  have ht : t.val < 20 := by have := t.isLt; omega
  obtain ⟨-, -, -, -, -, -, -, -, -, -, e0, e1⟩ := block_index2 t
  funext j
  obtain ⟨p, q, rfl⟩ : ∃ (p : Fin 5000) (q : Fin 64), j = ix2 p q := ⟨j 0, j 1, eq_ix2 j⟩
  have hr : t.val * 5000 + p.val < 100000 := by have := p.isLt; omega
  have hemb : ((cfg2.win 5).blk t).view.emb (ix2 p q) = (ix2 (⟨t.val * 5000 + p.val, hr⟩ : Fin 100000) q : S100000x64.Idx) :=
    funext fun a => Fin.ext (by
      match a with
      | ⟨0, _⟩ => show win2_5.index t (0 : Fin 2) * 5000 + 1 * p.val = t.val * 5000 + p.val; omega
      | ⟨1, _⟩ => show win2_5.index t (1 : Fin 2) * 64 + 1 * q.val = q.val; omega)
  show k2_pay1 (F := Ideal) (iblk2 V c 1 t) (iblk2 V c 0 t) (iblk2 V c 2 t) (iblk2 V c 3 t) (iblk2 V c 4 t) (ix2 p q)
    = Cert.Gcn.G2 (N := 100000) (K := 128) (C := 64) (V c main_v40) (V c main_v13) (V c main_v41) (V c main_arg6) (V c main_v42)
        (((cfg2.win 5).blk t).view.emb (ix2 p q))
  refine Eq.trans ?_ (congrArg (Cert.Gcn.G2 (N := 100000) (K := 128) (C := 64) (V c main_v40) (V c main_v13) (V c main_v41) (V c main_arg6) (V c main_v42)) hemb.symm)
  exact entry2_eq _ _ _ _ _ _ _ _ _ _ p q ⟨t.val * 5000 + p.val, hr⟩ (factor_block2_apply V c t p _ rfl)
    (fun k => rows_block2_apply V c t p k _ rfl) (fun k => bias_block2_apply V c t k) (fun k => matrix_block2_apply V c t k q)
    (outbias_block2_apply V c t q)

end Blocks

/-- A row of the table lies in grid point t's block iff it is one of rows 5000·t … 5000·t + 4999. -/
theorem mem_block2 (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v43).slice (win2_5.rect t)).set ↔ _
  rw [View.set_slice_whole, Rect.mem_set_unit]
  exact Iff.rfl

/-- Every entry of the table is written back by some grid point: row r by point r / 5000. -/
theorem covered2 (i : S100000x64.Idx) :
    ∃ t : Fin cfg2.N, (cfg2.win 5).flush t = true ∧ i ∈ ((cfg2.win 5).blk t).view.set := by
  have hN : cfg2.N = 20 := N_2
  have h0 : (i 0).val < 100000 := (i 0).isLt
  have h1 : (i 1).val < 64 := (i 1).isLt
  have hlt : (i 0).val / 5000 < cfg2.N := by rw [hN]; omega
  obtain ⟨-, -, -, -, -, -, -, -, -, -, e0, e1⟩ := block_index2 ⟨(i 0).val / 5000, hlt⟩
  refine ⟨⟨(i 0).val / 5000, hlt⟩, flush2_5 _, ?_⟩
  rw [mem_block2]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, hlt⟩ (1 : Fin 2) * 64 ≤ (i 1).val
      ∧ (i 1).val < win2_5.index ⟨(i 0).val / 5000, hlt⟩ (1 : Fin 2) * 64 + 64
    rw [e1]; omega

end Layer2

/-- After the third region its output array is the table of the specification: the activation of the aggregate times
    the matrix, plus the output bias. -/
theorem region2_array (V : (c : Dev nD) → (b : Ref sig .tc) → Buf (Elt Ideal) ((c : Thread nD τ).loc b)) (c : Dev nD) :
    (dat2 (F := Ideal) V c).arrAt 5 cfg2.N
      = Cert.Gcn.G2 (N := 100000) (K := 128) (C := 64) (V c main_v40) (V c main_v13) (V c main_v41) (V c main_arg6) (V c main_v42) :=
  (dat2 (F := Ideal) V c).arrAt_eq_of_cover 5
    (Cert.Gcn.G2 (N := 100000) (K := 128) (C := 64) (V c main_v40) (V c main_v13) (V c main_v41) (V c main_arg6) (V c main_v42))
    (fun t _ => Layer2.flushed2_eq V c t) Layer2.covered2

end Cert.KernelIdeal.RegionValue

end
-- ==== Proof.LibTypedRef.lean ====
/-
  Typed references and lines of host operations: three general facts.

  An operation of a module-local function is spelt over typed references: its function is stated at the value's type
  `T` and moved to the buffer's own type along the reference's proof that the two types agree (`toBuf`), and an
  operand's contents are moved the other way (`ofBuf`). Both moves are the identity, since the proof they move along
  can only be reflexivity; the lemmas here say so for any typed reference, by taking the reference apart:

  * `ofBuf_toBuf`: there and back is the identity (what stands between two operations of a line that is read back);
  * `toBuf_eq`: a moved value equals contents of the buffer that are the same value (the outermost move);
  * `after_append`: the contents after two lines in a row are those after their concatenation, so a long line can be
    read back stretch by stretch.
-/
import Idealize.ShloMosaic.Lib.StableHlo.Run

noncomputable section

namespace Idealize.ShloMosaic.TypedRef

open Idealize.ShloMosaic Idealize.ShloMosaic.StableHlo

variable {nD : Nat} {τ : Topo} {sig : RefSig} {Val : EltTy → Type}

/-- A value moved to the buffer's type and back is the value. -/
theorem ofBuf_toBuf {T : BufTy} (x : TRef sig T) (v : T.Contents Val) : x.ofBuf (x.toBuf v) = v := by
  obtain ⟨r, rfl, h2, h3⟩ := x
  rfl

/-- A value moved to the buffer's type is any contents of the buffer that are the same value. -/
theorem toBuf_eq {T : BufTy} (x : TRef sig T) (v : T.Contents Val) (w : x.ref.ty.Contents Val) (h : HEq v w) :
    x.toBuf v = w := by
  obtain ⟨r, rfl, h2, h3⟩ := x
  exact eq_of_heq h

/-- The contents after a line and then another are the contents after their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

end Idealize.ShloMosaic.TypedRef

end
-- ==== Proof.KernelFold.lean ====
/-
  What the idealized kernel computes, read off the fold of its segments.

  The program's buffers are written once each, in order: a first stretch of host operations computes, from the edge
  list, the two index vectors (sources and targets), the in-degrees and the node factors; then a kernel region, a
  gather along the edges and a scatter-add at the targets, twice; then the last region. This file names each stage as a
  function of the argument arrays and reads every buffer a region takes, boundary by boundary, until the result array
  is one closed term of the arguments: the third region's table of the second aggregate, which is a scatter-add of the
  gathered second region's table of the first aggregate, and so on down to the arguments.
-/
import proofs.«113423_j44839458570483_2_alg».proof.Proof.Gen.KernelIdeal.Frame
import proofs.«113423_j44839458570483_2_alg».proof.Proof.GcnSpec
import proofs.«113423_j44839458570483_2_alg».proof.Proof.Region0
import proofs.«113423_j44839458570483_2_alg».proof.Proof.Region1
import proofs.«113423_j44839458570483_2_alg».proof.Proof.Region2
import proofs.«113423_j44839458570483_2_alg».proof.Proof.LibTypedRef
import Idealize.ShloMosaic.Lib.StableHlo.Run

set_option maxRecDepth 16384

noncomputable section

namespace Cert.KernelIdeal.FoldValue

open Cert.KernelIdeal Cert.KernelIdeal.Gen
open Idealize.ShloMosaic Idealize.ShloMosaic.TcCoe Idealize.SL.Sem Idealize.ShloMosaic.StableHlo
open Idealize.ShloMosaic.TypedRef

/-! ## The stages, as functions of the argument arrays -/

/-- The edges' source nodes: row 0 of the edge list. -/
def srcK (x1 : IVec S2x1600000 32) : IVec S1600000 32 :=
  shapeCast S1600000 (extractStridedSlice S1x1600000 ![0, 0] x1 slices_S2x1600000_S1x1600000_0_0) shapeCasts_S1x1600000_S1600000

/-- The edges' target nodes: row 1 of the edge list. -/
def tgtK (x1 : IVec S2x1600000 32) : IVec S1600000 32 :=
  shapeCast S1600000 (extractStridedSlice S1x1600000 ![1, 0] x1 slices_S2x1600000_S1x1600000_1_0) shapeCasts_S1x1600000_S1600000

/-- The in-degrees: a one added at every edge's target. -/
def degK (x1 : IVec S2x1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (tgtK x1))
    (broadcastInDim S1600000 ![] bcast_S_S1600000 (constant S_ .f32 0x3F800000#32))

/-- The node factors: the degree to the power −1/2 where it is positive, 0 elsewhere. -/
def disK (x1 : IVec S2x1600000 32) : FVec Ideal S100000 .f32 :=
  select (cmpf .ogt (degK x1) (broadcastInDim S100000 ![] bcast_S_S100000 (constant S_ .f32 0x00000000#32)))
    (Host.powf (degK x1) (broadcastInDim S100000 ![] bcast_S_S100000 (constant S_ .f32 0xBF000000#32)))
    (broadcastInDim S100000 ![] bcast_S_S100000 (id (constant S_ .f32 0x00000000#32)))

/-- The node factors as a column. -/
def disColK (x1 : IVec S2x1600000 32) : FVec Ideal S100000x1 .f32 :=
  shapeCast S100000x1 (disK x1) shapeCasts_S100000_S100000x1

/-- The gather's start rows: the sources, a negative one shifted by the number of nodes, as a column. -/
def srcColK (x1 : IVec S2x1600000 32) : IVec S1600000x1 32 :=
  broadcastInDim S1600000x1 ![0] bcast_S1600000_S1600000x1_0
    (select (cmpi .slt (srcK x1) (broadcastInDim S1600000 ![] bcast_S_S1600000 (constantI S_ 32 0#32)))
      (addi (srcK x1) (broadcastInDim S1600000 ![] bcast_S_S1600000 (constantI S_ 32 100000#32))) (srcK x1))

/-- The scatter's target rows, as a column. -/
def tgtColK (x1 : IVec S2x1600000 32) : IVec S1600000x1 32 :=
  broadcastInDim S1600000x1 ![0] bcast_S1600000_S1600000x1_0 (tgtK x1)

/-- One aggregation: the rows of a node table gathered at the edges' sources and added up at their targets. -/
def aggK (x1 : IVec S2x1600000 32) (R : FVec Ideal S100000x128 .bf16) : FVec Ideal S100000x128 .f32 :=
  Host.scatterAdd scatter_S100000x128_S1600000x1_S1600000x128_1_0_0_1
    (broadcastInDim S100000x128 ![] bcast_S_S100000x128 (constant S_ .f32 0x00000000#32))
    (tgtColK x1)
    (extf .f32 (Host.gather gather_S100000x128_S1600000x1_S1600000x128_1_0_n_n_0_1_1128 R (srcColK x1)) bitsLt_bf16_f32)

variable (m : (ℓ : Loc nD τ sig) → Buf (Elt Ideal) ℓ) (ρ : Dev nD → PrngReg) (c : Dev nD)

/-- An operand's contents moved to the value's type are any value that is the same contents. -/
theorem ofBuf_eq {sig' : RefSig} {Val : EltTy → Type} {T : BufTy} (x : TRef sig' T) (w : x.ref.ty.Contents Val) (v : T.Contents Val)
    (h : HEq w v) : x.ofBuf w = v := by
  obtain ⟨r, rfl, h2, h3⟩ := x
  exact eq_of_heq h

/-! ## Boundary 3: the first region's entry -/

theorem at3_arg0 : W3 m ρ c (Proc.devRef .tc main_arg0) = (m ((c : Thread nD τ).loc main_arg0)) := by
  dsimp only [W3, W2, W1, hostOps0_2, hostOps0_1, hostOps0]; after_results <;> rfl
/-- The comparison, the power and the zero scalar the node factors are selected from, after the first stretch. -/
theorem at1_pos : W1 m ρ c (Proc.devRef .tc main_v9)
    = cmpf .ogt (degK (m ((c : Thread nD τ).loc main_arg1))) (broadcastInDim S100000 ![] bcast_S_S100000 (constant S_ .f32 0x00000000#32)) := by
  dsimp only [W1, hostOps0]; after_results <;> rfl
theorem at1_pow : W1 m ρ c (Proc.devRef .tc main_v11)
    = Host.powf (degK (m ((c : Thread nD τ).loc main_arg1))) (broadcastInDim S100000 ![] bcast_S_S100000 (constant S_ .f32 0xBF000000#32)) := by
  dsimp only [W1, hostOps0]; after_results <;> rfl
theorem at1_zero : W1 m ρ c (Proc.devRef .tc main_cst_3) = constant (F := Ideal) S_ .f32 0x00000000#32 := by
  dsimp only [W1, hostOps0]; after_results <;> rfl

/-- The node factors after the selection. Its three operations are spelt over typed references: each moves its
    operands to the values' types and its result back, and every such move is the identity. -/
theorem at2_dis : W2 m ρ c (Proc.devRef .tc main_v12) = disK (m ((c : Thread nD τ).loc main_arg1)) := by
  have e9 := at1_pos m ρ c
  have e11 := at1_pow m ρ c
  have e0 := at1_zero m ρ c
  dsimp only [W2, hostOps0_1]
  generalize W1 m ρ c = V at e9 e11 e0 ⊢
  after_results
  rw [e9, e11, e0]
  simp only [ofBuf_toBuf]
  refine toBuf_eq _ _ _ (heq_of_eq ?_)
  unfold disK
  refine congrArg₂ (fun a b => select a b _) ?_ ?_
  · exact ofBuf_eq _ _ _ HEq.rfl
  · exact ofBuf_eq _ _ _ HEq.rfl

theorem at3_dis : W3 m ρ c (Proc.devRef .tc main_v13) = disColK (m ((c : Thread nD τ).loc main_arg1)) := by
  have e := at2_dis m ρ c
  dsimp only [W3, hostOps0_2]
  generalize W2 m ρ c = V at e ⊢
  after_results
  rw [e]; rfl
theorem at3_w0 : W3 m ρ c (Proc.devRef .tc main_v14) = transpose S128x128 [1, 0] (m ((c : Thread nD τ).loc main_arg2)) transposes_S128x128_S128x128_1_0 := by
  dsimp only [W3, W2, W1, hostOps0_2, hostOps0_1, hostOps0]; after_results <;> rfl
theorem at3_w1 : W3 m ρ c (Proc.devRef .tc main_v15) = transpose S128x128 [1, 0] (m ((c : Thread nD τ).loc main_arg4)) transposes_S128x128_S128x128_1_0 := by
  dsimp only [W3, W2, W1, hostOps0_2, hostOps0_1, hostOps0]; after_results <;> rfl
theorem at3_src : W3 m ρ c (Proc.devRef .tc main_v1) = srcK (m ((c : Thread nD τ).loc main_arg1)) := by
  dsimp only [W3, W2, W1, hostOps0_2, hostOps0_1, hostOps0]; after_results <;> rfl
theorem at3_tgt : W3 m ρ c (Proc.devRef .tc main_v3) = tgtK (m ((c : Thread nD τ).loc main_arg1)) := by
  dsimp only [W3, W2, W1, hostOps0_2, hostOps0_1, hostOps0]; after_results <;> rfl
theorem at3_arg3 : W3 m ρ c (Proc.devRef .tc main_arg3) = (m ((c : Thread nD τ).loc main_arg3)) := by
  dsimp only [W3, W2, W1, hostOps0_2, hostOps0_1, hostOps0]; after_results <;> rfl
theorem at3_arg5 : W3 m ρ c (Proc.devRef .tc main_arg5) = (m ((c : Thread nD τ).loc main_arg5)) := by
  dsimp only [W3, W2, W1, hostOps0_2, hostOps0_1, hostOps0]; after_results <;> rfl
theorem at3_arg6 : W3 m ρ c (Proc.devRef .tc main_arg6) = (m ((c : Thread nD τ).loc main_arg6)) := by
  dsimp only [W3, W2, W1, hostOps0_2, hostOps0_1, hostOps0]; after_results <;> rfl
theorem at3_arg7 : W3 m ρ c (Proc.devRef .tc main_arg7) = (m ((c : Thread nD τ).loc main_arg7)) := by
  dsimp only [W3, W2, W1, hostOps0_2, hostOps0_1, hostOps0]; after_results <;> rfl

/-! ## The three tables, as functions of the arguments -/

/-- The first region's table: the inputs times the first matrix, rows scaled by the node factors. -/
def tab0 (x0 : FVec Ideal S100000x128 .f32) (x1 : IVec S2x1600000 32) (x2 : FVec Ideal S128x128 .f32) : FVec Ideal S100000x128 .bf16 :=
  Cert.Gcn.G0 (N := 100000) (K := 128) (C := 128) x0 (transpose S128x128 [1, 0] x2 transposes_S128x128_S128x128_1_0) (disColK x1)

/-- The second region's table, of the first aggregate. -/
def tab1 (x0 : FVec Ideal S100000x128 .f32) (x1 : IVec S2x1600000 32) (x2 : FVec Ideal S128x128 .f32) (x3 : FVec Ideal S128 .f32)
    (x4 : FVec Ideal S128x128 .f32) : FVec Ideal S100000x128 .bf16 :=
  Cert.Gcn.G1 (N := 100000) (K := 128) (C := 128) (aggK x1 (tab0 x0 x1 x2)) (disColK x1) (shapeCast S1x128 x3 shapeCasts_S128_S1x128)
    (transpose S128x128 [1, 0] x4 transposes_S128x128_S128x128_1_0)

/-- The result: the third region's table, of the second aggregate. -/
def outK (x0 : FVec Ideal S100000x128 .f32) (x1 : IVec S2x1600000 32) (x2 : FVec Ideal S128x128 .f32) (x3 : FVec Ideal S128 .f32)
    (x4 : FVec Ideal S128x128 .f32) (x5 : FVec Ideal S128 .f32) (x6 : FVec Ideal S128x64 .f32) (x7 : FVec Ideal S64 .f32) :
    FVec Ideal S100000x64 .f32 :=
  Cert.Gcn.G2 (N := 100000) (K := 128) (C := 64) (aggK x1 (tab1 x0 x1 x2 x3 x4)) (disColK x1) (shapeCast S1x128 x5 shapeCasts_S128_S1x128) x6
    (shapeCast S1x64 x7 shapeCasts_S64_S1x64)

/-! ## Boundary 4: the first region's exit -/

theorem at4_tab : W4 m ρ c (Proc.devRef .tc main_v16) = tab0 (m ((c : Thread nD τ).loc main_arg0)) (m ((c : Thread nD τ).loc main_arg1)) (m ((c : Thread nD τ).loc main_arg2)) := by
  refine ((W4_arr m ρ c 3).trans (Cert.KernelIdeal.RegionValue.region0_array (V3 m ρ) c)).trans ?_
  show Cert.Gcn.G0 (N := 100000) (K := 128) (C := 128) (W3 m ρ c (Proc.devRef .tc main_arg0)) (W3 m ρ c (Proc.devRef .tc main_v14))
    (W3 m ρ c (Proc.devRef .tc main_v13)) = _
  rw [at3_arg0, at3_w0, at3_dis]; rfl
theorem at4_dis : W4 m ρ c (Proc.devRef .tc main_v13) = disColK (m ((c : Thread nD τ).loc main_arg1)) :=
  ((W4_arr m ρ c 2).trans (((dat0 (V3 m ρ) c).arrAt_in 2 rfl _).trans (A_eq0 (V3 m ρ) c 2))).trans (at3_dis m ρ c)
theorem at4_w1 : W4 m ρ c (Proc.devRef .tc main_v15) = (transpose S128x128 [1, 0] (m ((c : Thread nD τ).loc main_arg4)) transposes_S128x128_S128x128_1_0) :=
  (W4_of_ne m ρ c main_v15 (by decide)).trans (at3_w1 m ρ c)
theorem at4_src : W4 m ρ c (Proc.devRef .tc main_v1) = srcK (m ((c : Thread nD τ).loc main_arg1)) :=
  (W4_of_ne m ρ c main_v1 (by decide)).trans (at3_src m ρ c)
theorem at4_tgt : W4 m ρ c (Proc.devRef .tc main_v3) = tgtK (m ((c : Thread nD τ).loc main_arg1)) :=
  (W4_of_ne m ρ c main_v3 (by decide)).trans (at3_tgt m ρ c)
theorem at4_arg3 : W4 m ρ c (Proc.devRef .tc main_arg3) = (m ((c : Thread nD τ).loc main_arg3)) :=
  (W4_of_ne m ρ c main_arg3 (by decide)).trans (at3_arg3 m ρ c)
theorem at4_arg5 : W4 m ρ c (Proc.devRef .tc main_arg5) = (m ((c : Thread nD τ).loc main_arg5)) :=
  (W4_of_ne m ρ c main_arg5 (by decide)).trans (at3_arg5 m ρ c)
theorem at4_arg6 : W4 m ρ c (Proc.devRef .tc main_arg6) = (m ((c : Thread nD τ).loc main_arg6)) :=
  (W4_of_ne m ρ c main_arg6 (by decide)).trans (at3_arg6 m ρ c)
theorem at4_arg7 : W4 m ρ c (Proc.devRef .tc main_arg7) = (m ((c : Thread nD τ).loc main_arg7)) :=
  (W4_of_ne m ρ c main_arg7 (by decide)).trans (at3_arg7 m ρ c)

/-! ## Boundary 5: the second region's entry -/

set_option maxHeartbeats 2000000 in
theorem at5_agg : W5 m ρ c (Proc.devRef .tc main_v27) = aggK (m ((c : Thread nD τ).loc main_arg1)) (tab0 (m ((c : Thread nD τ).loc main_arg0)) (m ((c : Thread nD τ).loc main_arg1)) (m ((c : Thread nD τ).loc main_arg2))) := by
  have e1 := at4_tgt m ρ c
  have e2 := at4_tab m ρ c
  have e3 := at4_src m ρ c
  dsimp only [W5, hostOps1]
  generalize W4 m ρ c = V at e1 e2 e3 ⊢
  after_results
  rw [e1, e2, e3]; rfl
theorem at5_b0 : W5 m ρ c (Proc.devRef .tc main_v28) = shapeCast S1x128 (m ((c : Thread nD τ).loc main_arg3)) shapeCasts_S128_S1x128 := by
  dsimp only [W5, hostOps1]; after_results
  rw [at4_arg3]; rfl
theorem at5_dis : W5 m ρ c (Proc.devRef .tc main_v13) = disColK (m ((c : Thread nD τ).loc main_arg1)) := by
  dsimp only [W5, hostOps1]; after_results; exact at4_dis m ρ c
theorem at5_w1 : W5 m ρ c (Proc.devRef .tc main_v15) = (transpose S128x128 [1, 0] (m ((c : Thread nD τ).loc main_arg4)) transposes_S128x128_S128x128_1_0) := by
  dsimp only [W5, hostOps1]; after_results; exact at4_w1 m ρ c
theorem at5_src : W5 m ρ c (Proc.devRef .tc main_v1) = srcK (m ((c : Thread nD τ).loc main_arg1)) := by
  dsimp only [W5, hostOps1]; after_results; exact at4_src m ρ c
theorem at5_tgt : W5 m ρ c (Proc.devRef .tc main_v3) = tgtK (m ((c : Thread nD τ).loc main_arg1)) := by
  dsimp only [W5, hostOps1]; after_results; exact at4_tgt m ρ c
theorem at5_arg5 : W5 m ρ c (Proc.devRef .tc main_arg5) = (m ((c : Thread nD τ).loc main_arg5)) := by
  dsimp only [W5, hostOps1]; after_results; exact at4_arg5 m ρ c
theorem at5_arg6 : W5 m ρ c (Proc.devRef .tc main_arg6) = (m ((c : Thread nD τ).loc main_arg6)) := by
  dsimp only [W5, hostOps1]; after_results; exact at4_arg6 m ρ c
theorem at5_arg7 : W5 m ρ c (Proc.devRef .tc main_arg7) = (m ((c : Thread nD τ).loc main_arg7)) := by
  dsimp only [W5, hostOps1]; after_results; exact at4_arg7 m ρ c

/-! ## Boundary 6: the second region's exit -/

theorem at6_tab : W6 m ρ c (Proc.devRef .tc main_v29) = tab1 (m ((c : Thread nD τ).loc main_arg0)) (m ((c : Thread nD τ).loc main_arg1)) (m ((c : Thread nD τ).loc main_arg2)) (m ((c : Thread nD τ).loc main_arg3)) (m ((c : Thread nD τ).loc main_arg4)) := by
  refine ((W6_arr m ρ c 4).trans (Cert.KernelIdeal.RegionValue.region1_array (V5 m ρ) c)).trans ?_
  show Cert.Gcn.G1 (N := 100000) (K := 128) (C := 128) (W5 m ρ c (Proc.devRef .tc main_v27)) (W5 m ρ c (Proc.devRef .tc main_v13))
    (W5 m ρ c (Proc.devRef .tc main_v28)) (W5 m ρ c (Proc.devRef .tc main_v15)) = _
  rw [at5_agg, at5_dis, at5_b0, at5_w1]; rfl
theorem at6_dis : W6 m ρ c (Proc.devRef .tc main_v13) = disColK (m ((c : Thread nD τ).loc main_arg1)) :=
  ((W6_arr m ρ c 1).trans (((dat1 (V5 m ρ) c).arrAt_in 1 rfl _).trans (A_eq1 (V5 m ρ) c 1))).trans (at5_dis m ρ c)
theorem at6_src : W6 m ρ c (Proc.devRef .tc main_v1) = srcK (m ((c : Thread nD τ).loc main_arg1)) :=
  (W6_of_ne m ρ c main_v1 (by decide)).trans (at5_src m ρ c)
theorem at6_tgt : W6 m ρ c (Proc.devRef .tc main_v3) = tgtK (m ((c : Thread nD τ).loc main_arg1)) :=
  (W6_of_ne m ρ c main_v3 (by decide)).trans (at5_tgt m ρ c)
theorem at6_arg5 : W6 m ρ c (Proc.devRef .tc main_arg5) = (m ((c : Thread nD τ).loc main_arg5)) :=
  (W6_of_ne m ρ c main_arg5 (by decide)).trans (at5_arg5 m ρ c)
theorem at6_arg6 : W6 m ρ c (Proc.devRef .tc main_arg6) = (m ((c : Thread nD τ).loc main_arg6)) :=
  (W6_of_ne m ρ c main_arg6 (by decide)).trans (at5_arg6 m ρ c)
theorem at6_arg7 : W6 m ρ c (Proc.devRef .tc main_arg7) = (m ((c : Thread nD τ).loc main_arg7)) :=
  (W6_of_ne m ρ c main_arg7 (by decide)).trans (at5_arg7 m ρ c)

/-! ## Boundary 7: the third region's entry -/

set_option maxHeartbeats 2000000 in
theorem at7_agg : W7 m ρ c (Proc.devRef .tc main_v40) = aggK (m ((c : Thread nD τ).loc main_arg1)) (tab1 (m ((c : Thread nD τ).loc main_arg0)) (m ((c : Thread nD τ).loc main_arg1)) (m ((c : Thread nD τ).loc main_arg2)) (m ((c : Thread nD τ).loc main_arg3)) (m ((c : Thread nD τ).loc main_arg4))) := by
  have e1 := at6_tgt m ρ c
  have e2 := at6_tab m ρ c
  have e3 := at6_src m ρ c
  dsimp only [W7, hostOps2]
  generalize W6 m ρ c = V at e1 e2 e3 ⊢
  after_results
  rw [e1, e2, e3]; rfl
theorem at7_b1 : W7 m ρ c (Proc.devRef .tc main_v41) = shapeCast S1x128 (m ((c : Thread nD τ).loc main_arg5)) shapeCasts_S128_S1x128 := by
  dsimp only [W7, hostOps2]; after_results
  rw [at6_arg5]; rfl
theorem at7_ob : W7 m ρ c (Proc.devRef .tc main_v42) = shapeCast S1x64 (m ((c : Thread nD τ).loc main_arg7)) shapeCasts_S64_S1x64 := by
  dsimp only [W7, hostOps2]; after_results
  rw [at6_arg7]; rfl
theorem at7_dis : W7 m ρ c (Proc.devRef .tc main_v13) = disColK (m ((c : Thread nD τ).loc main_arg1)) := by
  dsimp only [W7, hostOps2]; after_results; exact at6_dis m ρ c
theorem at7_arg6 : W7 m ρ c (Proc.devRef .tc main_arg6) = (m ((c : Thread nD τ).loc main_arg6)) := by
  dsimp only [W7, hostOps2]; after_results; exact at6_arg6 m ρ c

/-! ## Boundary 8: the result -/

/-- The result array at the last boundary is the closed term of the arguments. -/
theorem at8_out : W8 m ρ c (Proc.devRef .tc main_v43)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W8_arr m ρ c 5).trans (Cert.KernelIdeal.RegionValue.region2_array (V7 m ρ) c)).trans ?_
  show Cert.Gcn.G2 (N := 100000) (K := 128) (C := 64) (W7 m ρ c (Proc.devRef .tc main_v40)) (W7 m ρ c (Proc.devRef .tc main_v13))
    (W7 m ρ c (Proc.devRef .tc main_v41)) (W7 m ρ c (Proc.devRef .tc main_arg6)) (W7 m ρ c (Proc.devRef .tc main_v42)) = _
  rw [at7_agg, at7_dis, at7_b1, at7_arg6, at7_ob]; rfl

end Cert.KernelIdeal.FoldValue

end
-- ==== Proof.FiniteInputs.lean ====
/-
  From the precondition to "every float input is a real number".

  The precondition is one word: the conjunction, over the seven float inputs, of `all(|x| < +∞)` taken over every
  entry of the input (the integer input is not tested). An extended real `x` has `|x| = max x (−x)`, which is `⊤` at
  both infinities and a real otherwise, so `|x| < ⊤` holds exactly at the reals. A conjunction that comes out 1 had a 1
  at every conjunct, and an "all" that comes out 1 had a 1 at every entry: so under the precondition every entry of
  every float input is the image of a real. This is what licenses the distributive law, which fails on the extended
  reals at the infinities.
-/
import proofs.«113423_j44839458570483_2_alg».proof.Defs
import proofs.«113423_j44839458570483_2_alg».proof.Proof.Gen.Pre_finite_inputs
import proofs.«113423_j44839458570483_2_alg».proof.Proof.GcnSpec
import Idealize.ShloMosaic.Lib.ReduceAll

noncomputable section

namespace Cert.Gcn

open Idealize.ShloMosaic Idealize.ShloMosaic.ValueIdx
open Cert.Pre_finite_inputs (S100000x128 S2x1600000 S128x128 S128 S128x64 S64 S_)

/-- An extended real whose absolute value is strictly below `+∞` is a real number: `|⊤| = |⊥| = ⊤` is not below `⊤`. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ y : ℝ, x = (y : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

/-- `all(|x| < +∞)` over an array of any shape: if the conjunction over all entries is 1, every entry is a real. -/
theorem realArr_of_all {S : Shape} {axes : List (Fin S.rank)} (x : FVec Ideal S .f32)
    (hb : S_.BroadcastsInDim S (![] : Fin 0 → Fin S.rank)) (hr : S.ReducesTo axes S_) (hu : 0 < S_.numel)
    (h : Host.reduce IntOp.andi
          (cmpf .olt (Host.absf x) (broadcastInDim S ![] hb (constant (F := Ideal) S_ .f32 0x7F800000#32)))
          (constantI S_ 1 1#1) hr hu ix0 = 1#1) :
    RealArr x := by
  haveI : Subsingleton S_.Idx := ⟨fun a b => funext fun d => d.elim0⟩
  intro i
  exact real_of_abs_lt_inf (x i) (Host.reduce_andi_all _ _ hr hu ix0 h i)

/-- The precondition is a conjunction of seven tests `all(|x| < +∞)`, one per float input; when it holds every float
    input is an array of real numbers. -/
theorem real_of_pre [Cert.Pre_finite_inputs.Facts]
    (x0 : FVec Ideal S100000x128 .f32) (x1 : IVec S2x1600000 32) (x2 : FVec Ideal S128x128 .f32)
    (x3 : FVec Ideal S128 .f32) (x4 : FVec Ideal S128x128 .f32) (x5 : FVec Ideal S128 .f32)
    (x6 : FVec Ideal S128x64 .f32) (x7 : FVec Ideal S64 .f32)
    (h : Cert.Pre_finite_inputs.fn (F := Ideal) x0 x1 x2 x3 x4 x5 x6 x7 = (fun _ => 1#1)) :
    RealArr x0 ∧ RealArr x2 ∧ RealArr x3 ∧ RealArr x4 ∧ RealArr x5 ∧ RealArr x6 ∧ RealArr x7 := by
  have h0 := congrFun h ix0
  dsimp only [Cert.Pre_finite_inputs.fn, Cert.Pre_finite_inputs.fn_part1] at h0
  obtain ⟨h28, h32⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨realArr_of_all x0 _ _ _ h3, realArr_of_all x2 _ _ _ h7, realArr_of_all x3 _ _ _ h12,
    realArr_of_all x4 _ _ _ h17, realArr_of_all x5 _ _ _ h22, realArr_of_all x6 _ _ _ h27,
    realArr_of_all x7 _ _ _ h32⟩

end Cert.Gcn

end
-- ==== Proof.LibRealImage.lean ====
/-
  GENERAL LEMMAS: real numbers inside the extended reals, under finite sums and maxima.
  • `coe_sum`: the image of a finite sum of reals is the sum of the images;
  • `coe_max`: the image of a maximum of two reals is the maximum of the images;
  • `sum_mul_real`: a finite sum of reals times a real is the sum of the products, computed on the extended reals
    (the distributive law, which fails there at infinities, holds when every term and the factor are real).
-/
import Mathlib.Data.EReal.Basic
import Mathlib.Data.EReal.Operations
import Mathlib.Algebra.BigOperators.Fin

open scoped BigOperators

namespace Cert.Lib.RealImage

/-- The image of a finite sum of reals is the sum of the images. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The image of a maximum of reals is the maximum of the images. -/
theorem coe_max (a b : ℝ) : ((max a b : ℝ) : EReal) = max (a : EReal) (b : EReal) :=
  EReal.coe_strictMono.monotone.map_max

/-- A sum of reals times a real is the sum of the products, on the extended reals. -/
theorem sum_mul_real {ι : Type*} (s : Finset ι) (h : ι → ℝ) (e : ℝ) :
    (∑ i ∈ s, (h i : EReal)) * (e : EReal) = ∑ i ∈ s, (h i : EReal) * (e : EReal) := by
  rw [← coe_sum, ← EReal.coe_mul, Finset.sum_mul, coe_sum]
  exact Finset.sum_congr rfl fun i _ => EReal.coe_mul _ _

end Cert.Lib.RealImage
-- ==== Proof.EdgeSum.lean ====
/-
  Index arithmetic of the edge operations, and the layer's law.

  Three index facts, each read at an index given by literal coordinates: where an update row of a row scatter lands
  (the target read signed, not clamped; dropped when it is not a row of the table), and which entry a row gather and a
  vector gather read (the start read signed and clamped into the table).

  Then the law that lets the node factor leave the edge sum: for a real table H and real node factors dis,
      dis v · ∑_{e targets v} (H (src e) c · dis (src e))  =  ∑_{e targets v} (dis (src e) · dis v) · H (src e) c.
  Both sums run over the same set of update indices, those that land at (v, c). For such an index the target is a row
  of the table, hence non-negative, so the clamp leaves it alone and the second gathered factor is dis v; the terms
  then agree by commutativity and associativity. The outer factor enters the sum because every term is a real number.
-/
import proofs.«113423_j44839458570483_2_alg».proof.Proof.GcnSpec
import proofs.«113423_j44839458570483_2_alg».proof.Proof.LibRealImage

noncomputable section

open scoped BigOperators

namespace Cert.Gcn

open Idealize.ShloMosaic Idealize.ShloMosaic.ValueIdx

variable {N E C : Nat}

/-! ## The two gathers read at an index -/

/-- A row gather read at `(e, c)`: the table at the clamped start row, same column. -/
theorem rowsGather_apply {α : Type} (hN : 0 < N) (wf) (x : (⟨2, ![N, C]⟩ : Shape).Idx → α) (idx : IVec ⟨2, ![E, 1]⟩ 32)
    (e : Fin E) (c : Fin C) :
    Host.gather (rowsGather N E C wf) x idx (ix2 e c) = x (ix2 (clampRow hN (idx (ix2 e (0 : Fin 1)))) c) := by
  unfold Host.gather
  congr 1
  funext a
  refine Fin.ext ?_
  match a with
  | ⟨0, _⟩ =>
    -- the row axis: the clamped start, no batching, no offset (the axis is collapsed)
    show (rowsGather N E C wf).start (ix2 e c) idx 0 + (rowsGather N E C wf).batchCoord (ix2 e c) 0
      + (rowsGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N E C wf).startIndexMap from List.mem_singleton.mpr rfl)]
    have hsi : (rowsGather N E C wf).siIdx (ix2 e c) ⟨List.idxOf (0 : Fin 2) (rowsGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: no start, no batching, the result's own column as offset
    show (rowsGather N E C wf).start (ix2 e c) idx 1 + (rowsGather N E C wf).batchCoord (ix2 e c) 1
      + (rowsGather N E C wf).offCoord (ix2 e c) 1 = _
    rw [GatherDims.batchCoord_eq_zero _ _ _ List.not_mem_nil]
    unfold GatherDims.start
    rw [dif_neg (show (1 : Fin 2) ∉ (rowsGather N E C wf).startIndexMap from (by decide : (1 : Fin 2) ∉ [(0 : Fin 2)]))]
    unfold GatherDims.offCoord
    rw [dif_pos (show (1 : Fin 2) ∈ (rowsGather N E C wf).sKept from
      (by decide : (1 : Fin 2) ∈ (List.finRange 2).filter (· ∉ [(0 : Fin 2)])))]
    simp only [Nat.add_zero, Nat.zero_add]
    rfl

/-- A vector gather read at `e`: the vector at the clamped start position. -/
theorem takeGather_apply {α : Type} (hN : 0 < N) (wf) (x : (⟨1, ![N]⟩ : Shape).Idx → α) (idx : IVec ⟨2, ![E, 1]⟩ 32) (e : Fin E) :
    Host.gather (takeGather N E wf) x idx (ix1 e) = x (ix1 (clampRow hN (idx (ix2 e (0 : Fin 1))))) := by
  unfold Host.gather
  congr 1
  funext a
  obtain rfl : a = 0 := Subsingleton.elim _ _
  refine Fin.ext ?_
  show (takeGather N E wf).start (ix1 e) idx 0 + (takeGather N E wf).batchCoord (ix1 e) 0
    + (takeGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeGather N E wf).startIndexMap from List.mem_singleton.mpr rfl)]
  have hsi : (takeGather N E wf).siIdx (ix1 e) ⟨List.idxOf (0 : Fin 1) (takeGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Where a row scatter's update lands -/

section Scatter
variable (wf : ScatterDims.WF ⟨2, ![N, C]⟩ ⟨2, ![E, 1]⟩ ⟨2, ![E, C]⟩ [1] [0] [0] 1) (idx : IVec ⟨2, ![E, 1]⟩ 32)
  (e : Fin E) (c : Fin C)

/-- On the row axis the window starts at the target row, read signed. -/
private theorem rowsScatter_start0 :
    (rowsScatter N E C wf).start (ix2 e c) idx 0 = (idx (ix2 e (0 : Fin 1))).toInt := by
  unfold ScatterDims.start
  rw [dif_pos (show (0 : Fin 2) ∈ (rowsScatter N E C wf).scatterDimsToOperandDims from List.mem_singleton.mpr rfl)]
  have hsi : (rowsScatter N E C wf).siIdx (ix2 e c) ⟨List.idxOf (0 : Fin 2) (rowsScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
private theorem rowsScatter_start1 : (rowsScatter N E C wf).start (ix2 e c) idx 1 = 0 := by
  unfold ScatterDims.start
  rw [dif_neg (show (1 : Fin 2) ∉ (rowsScatter N E C wf).scatterDimsToOperandDims from (by decide : (1 : Fin 2) ∉ [(0 : Fin 2)]))]

/-- The row axis is inserted: no window coordinate there. -/
private theorem rowsScatter_window0 : (rowsScatter N E C wf).window (ix2 e c) 0 = 0 := by
  unfold ScatterDims.window
  rw [dif_neg (show (0 : Fin 2) ∉ (rowsScatter N E C wf).sKept from
    (by decide : (0 : Fin 2) ∉ (List.finRange 2).filter (· ∉ [(0 : Fin 2)])))]

/-- On the column axis the window coordinate is the update's own column. -/
private theorem rowsScatter_window1 : (rowsScatter N E C wf).window (ix2 e c) 1 = c.val := by
  unfold ScatterDims.window
  rw [dif_pos (show (1 : Fin 2) ∈ (rowsScatter N E C wf).sKept from
    (by decide : (1 : Fin 2) ∈ (List.finRange 2).filter (· ∉ [(0 : Fin 2)])))]
  rfl

end Scatter

/-- Where update `(e, c)` of a row scatter lands: row `target e` (read signed, not clamped), column `c`; nowhere when
    the target is not a row of the table. -/
theorem rowsScatter_resultIdx (wf) (idx : IVec ⟨2, ![E, 1]⟩ 32) (e : Fin E) (c : Fin C) :
    (rowsScatter N E C wf).resultIdx? (ix2 e c) idx
      = if h : 0 ≤ (idx (ix2 e (0 : Fin 1))).toInt ∧ (idx (ix2 e (0 : Fin 1))).toInt < (N : Int)
        then some (ix2 (⟨(idx (ix2 e (0 : Fin 1))).toInt.toNat, by omega⟩ : Fin N) c) else none := by
  unfold ScatterDims.resultIdx?
  by_cases h : 0 ≤ (idx (ix2 e (0 : Fin 1))).toInt ∧ (idx (ix2 e (0 : Fin 1))).toInt < (N : Int)
  · -- the target is a row: both axes are in range
    have hall : ∀ a : Fin 2, 0 ≤ (rowsScatter N E C wf).start (ix2 e c) idx a + ((rowsScatter N E C wf).window (ix2 e c) a : Int)
        ∧ (rowsScatter N E C wf).start (ix2 e c) idx a + ((rowsScatter N E C wf).window (ix2 e c) a : Int)
          < (((⟨2, ![N, C]⟩ : Shape).size a : Nat) : Int) := by
      intro a
      match a with
      | ⟨0, _⟩ =>
        show 0 ≤ (rowsScatter N E C wf).start (ix2 e c) idx 0 + ((rowsScatter N E C wf).window (ix2 e c) 0 : Int)
          ∧ (rowsScatter N E C wf).start (ix2 e c) idx 0 + ((rowsScatter N E C wf).window (ix2 e c) 0 : Int) < (N : Int)
        rw [rowsScatter_start0, rowsScatter_window0]
        omega
      | ⟨1, _⟩ =>
        show 0 ≤ (rowsScatter N E C wf).start (ix2 e c) idx 1 + ((rowsScatter N E C wf).window (ix2 e c) 1 : Int)
          ∧ (rowsScatter N E C wf).start (ix2 e c) idx 1 + ((rowsScatter N E C wf).window (ix2 e c) 1 : Int) < (C : Int)
        rw [rowsScatter_start1, rowsScatter_window1]
        have := c.isLt
        omega
    rw [dif_pos hall, dif_pos h]
    congr 1
    funext a
    refine Fin.ext ?_
    match a with
    | ⟨0, _⟩ =>
      show ((rowsScatter N E C wf).start (ix2 e c) idx 0 + ((rowsScatter N E C wf).window (ix2 e c) 0 : Int)).toNat
        = (idx (ix2 e (0 : Fin 1))).toInt.toNat
      rw [rowsScatter_start0, rowsScatter_window0]
      simp
    | ⟨1, _⟩ =>
      show ((rowsScatter N E C wf).start (ix2 e c) idx 1 + ((rowsScatter N E C wf).window (ix2 e c) 1 : Int)).toNat = c.val
      rw [rowsScatter_start1, rowsScatter_window1]
      simp
  · -- the target is not a row: the row axis is out of range
    rw [dif_neg h, dif_neg]
    intro hall
    have h0 : 0 ≤ (rowsScatter N E C wf).start (ix2 e c) idx 0 + ((rowsScatter N E C wf).window (ix2 e c) 0 : Int)
        ∧ (rowsScatter N E C wf).start (ix2 e c) idx 0 + ((rowsScatter N E C wf).window (ix2 e c) 0 : Int) < (N : Int) :=
      hall 0
    rw [rowsScatter_start0, rowsScatter_window0] at h0
    exact h ⟨by omega, by omega⟩

/-! ## The layer's law -/

/-- A real factor enters a finite sum of real terms: the distributive law, which fails on the extended reals at
    infinities, holds when the factor and every term are real. -/
private theorem real_mul_sum {ι : Type} (s : Finset ι) (a : EReal) (g : ι → EReal)
    (ha : ∃ y : ℝ, a = (y : EReal)) (hg : ∀ i, ∃ y : ℝ, g i = (y : EReal)) :
    a * ∑ i ∈ s, g i = ∑ i ∈ s, a * g i := by
  obtain ⟨y, rfl⟩ := ha
  choose f hf using hg
  obtain rfl : g = fun i => ((f i : ℝ) : EReal) := funext hf
  rw [mul_comm, Cert.Lib.RealImage.sum_mul_real]
  exact Finset.sum_congr rfl fun i _ => mul_comm _ _

/-- A start index that is below the number of rows, read signed, is left where it is by the clamp (a negative one
    goes to row 0, which is also what reading it as a natural number gives). -/
private theorem clampRow_of_lt (hN : 0 < N) (b : BitVec 32) (h : b.toInt < (N : Int)) :
    clampRow hN b = (⟨b.toInt.toNat, by omega⟩ : Fin N) := by
  refine Fin.ext ?_
  show min b.toInt.toNat (N - 1) = b.toInt.toNat
  omega

/-- THE LAYER'S LAW. The node factor times the sum of the scaled rows gathered along the edges is the sum of the rows
    each multiplied by its edge's coefficient, entry by entry, when the table and the node factors are real. -/
theorem conv_factor (hN : 0 < N) (wfS) (wfG) (wfT)
    (dis : (⟨1, ![N]⟩ : Shape).Idx → EReal) (H R z : (⟨2, ![N, C]⟩ : Shape).Idx → EReal)
    (nrm : (⟨2, ![E, C]⟩ : Shape).Idx → EReal) (rowW colW col : IVec ⟨2, ![E, 1]⟩ 32)
    (hdis : RealArr dis) (hH : RealArr H) (hz : ∀ i, z i = 0)
    (hR : ∀ (p : Fin N) (q : Fin C), R (ix2 p q) = H (ix2 p q) * dis (ix1 p))
    (hn : ∀ (e : Fin E) (q : Fin C), nrm (ix2 e q)
      = Host.gather (takeGather N E wfT) dis rowW (ix1 e) * Host.gather (takeGather N E wfT) dis colW (ix1 e))
    (hw : ∀ e : Fin E, 0 ≤ (col (ix2 e (0 : Fin 1))).toInt → colW (ix2 e (0 : Fin 1)) = col (ix2 e (0 : Fin 1)))
    (v : Fin N) (c : Fin C) :
    dis (ix1 v) * Host.scatterAdd (F := Ideal) (φ := .f32) (rowsScatter N E C wfS) z col
        (Host.gather (rowsGather N E C wfG) R rowW) (ix2 v c)
      = Host.scatterAdd (F := Ideal) (φ := .f32) (rowsScatter N E C wfS) z col
        (mulf (F := Ideal) (φ := .f32) nrm (Host.gather (rowsGather N E C wfG) H rowW)) (ix2 v c) := by
  -- every gathered entry of the scaled table is real
  have hreal : ∀ j, ∃ y : ℝ, Host.gather (rowsGather N E C wfG) R rowW j = (y : EReal) := by
    intro j
    obtain ⟨e, q, rfl⟩ : ∃ (e : Fin E) (q : Fin C), j = ix2 e q := ⟨j 0, j 1, eq_ix2 j⟩
    rw [rowsGather_apply hN, hR]
    obtain ⟨a, ha⟩ := hH (ix2 (clampRow hN (rowW (ix2 e (0 : Fin 1)))) q)
    obtain ⟨b, hb⟩ := hdis (ix1 (clampRow hN (rowW (ix2 e (0 : Fin 1)))))
    exact ⟨a * b, by rw [ha, hb, EReal.coe_mul]⟩
  -- both sides: the (zero) table entry plus a sum over the updates that land at (v, c)
  simp only [Host.scatterAdd, Ideal.hostScatterAdd_def]
  unfold Ideal.hostScatterAdd
  rw [hz, zero_add, zero_add, real_mul_sum _ _ _ (hdis (ix1 v)) hreal]
  refine Finset.sum_congr rfl fun j hj => ?_
  obtain ⟨e, q, rfl⟩ : ∃ (e : Fin E) (q : Fin C), j = ix2 e q := ⟨j 0, j 1, eq_ix2 j⟩
  have hj' := (Finset.mem_filter.mp hj).2
  rw [rowsScatter_resultIdx] at hj'
  by_cases h : 0 ≤ (col (ix2 e (0 : Fin 1))).toInt ∧ (col (ix2 e (0 : Fin 1))).toInt < (N : Int)
  · -- the update lands in the table: its target is v, its column is c
    rw [dif_pos h] at hj'
    have hidx := Option.some.inj hj'
    have hv : (⟨(col (ix2 e (0 : Fin 1))).toInt.toNat, by omega⟩ : Fin N) = v := congrFun hidx 0
    have hq : q = c := congrFun hidx 1
    subst hq
    rw [mulf_apply, rowsGather_apply hN, rowsGather_apply hN, hR, hn, takeGather_apply hN, takeGather_apply hN,
      hw e h.1, clampRow_of_lt hN _ h.2, hv]
    rw [mul_comm (dis (ix1 (clampRow hN (rowW (ix2 e (0 : Fin 1)))))) (dis (ix1 v)), mul_assoc,
      mul_comm (H _) (dis _)]
  · -- an update that is dropped lands nowhere
    rw [dif_neg h] at hj'
    exact absurd hj' (by simp)

end Cert.Gcn

end
-- ==== Proof.RefStages.lean ====
/-
  The reference's stages the bridge touches, read at explicit coordinates.

  The reference computes, three times over, a dense product followed by an edge aggregation. Read one operation at a
  time, each stage is a function of the arrays before it; here the few stages that the comparison with the kernel needs
  are restated at an entry given by its coordinates:
  • the three products: entry `(p, q)` is `∑ k, L (p, k) · R (k, q)` (the host's product has no accumulator);
  • the biases: a vector `[C]` laid out as a row and repeated down the rows reads, at `(p, k)`, the vector's entry `k`;
  • the clipping constants and the initial tables of the edge sums: the zero word repeated, which is the real 0;
  • the index columns: the start-row column is built three times from the same source row by the same operations, and
    the target column likewise, so the copies are equal;
  • the edge coefficient repeated along a row: at `(e, q)` it is the product of the node factor at the edge's (wrapped)
    source and the node factor at its (wrapped) target;
  • wrapping a non-negative target changes nothing: a negative index has the table height added, a non-negative one is
    kept;
  • the vector of node factors cast to a column reads, at `(p, 0)`, the vector's entry `p`.
-/
import proofs.«113423_j44839458570483_2_alg».proof.Proof.RefReadP
import proofs.«113423_j44839458570483_2_alg».proof.Proof.GcnSpec
import proofs.«113423_j44839458570483_2_alg».proof.Proof.EdgeSum
import proofs.«113423_j44839458570483_2_alg».proof.Proof.LibPlainDot
import proofs.«113423_j44839458570483_2_alg».proof.Proof.LibKeepdims

noncomputable section

open scoped BigOperators

namespace Cert.ReferenceIdeal.Stages

open Cert.ReferenceIdeal Cert.ReferenceIdeal.Read Idealize.ShloMosaic Idealize.ShloMosaic.ValueIdx Cert.Gcn

variable (x0 : FVec Ideal S100000x128 .f32) (x1 : IVec S2x1600000 32) (x2 x4 : FVec Ideal S128x128 .f32)
  (x3 x5 : FVec Ideal S128 .f32) (x6 : FVec Ideal S128x64 .f32) (x7 : FVec Ideal S64 .f32)

/-! ## The three products at an entry -/

theorem dot0_apply (p : Fin 100000) (q : Fin 128) :
    val_main_v29 (F := Ideal) x0 x2 (ix2 p q) = dotAt (N := 100000) (K := 128) (C := 128) x0 (val_main_v28 (F := Ideal) x2) p q := by
  unfold val_main_v29
  exact PlainDot.hostDot_apply dot_S100000x128_S128x128_S100000x128_1_0_0_1_n_n rfl none x0 (val_main_v28 (F := Ideal) x2) (ix2 p q)
theorem dot1_apply (p : Fin 100000) (q : Fin 128) :
    val_main_v48 (F := Ideal) x0 x1 x2 x3 x4 (ix2 p q)
      = dotAt (N := 100000) (K := 128) (C := 128) (val_main_v46 (F := Ideal) x0 x1 x2 x3) (val_main_v47 (F := Ideal) x4) p q := by
  unfold val_main_v48
  exact PlainDot.hostDot_apply dot_S100000x128_S128x128_S100000x128_1_0_0_1_n_n rfl none
    (val_main_v46 (F := Ideal) x0 x1 x2 x3) (val_main_v47 (F := Ideal) x4) (ix2 p q)
theorem dot2_apply (p : Fin 100000) (q : Fin 64) :
    val_main_v66 (F := Ideal) x0 x1 x2 x3 x4 x5 x6 (ix2 p q)
      = dotAt (N := 100000) (K := 128) (C := 64) (val_main_v65 (F := Ideal) x0 x1 x2 x3 x4 x5) x6 p q := by
  unfold val_main_v66
  exact PlainDot.hostDot_apply dot_S100000x128_S128x64_S100000x64_1_0_0_1_n_n rfl none
    (val_main_v65 (F := Ideal) x0 x1 x2 x3 x4 x5) x6 (ix2 p q)

/-! ## The biases and the clipping constant at an entry -/

theorem bias0_apply (p : Fin 100000) (k : Fin 128) : val_main_v44 (F := Ideal) x3 (ix2 p k) = x3 (ix1 k) := by
  rw [val_main_v44_apply, val_main_v43_apply]
  exact congrArg x3 (funext fun a => Fin.ext (by match a with | ⟨0, _⟩ => rfl))
theorem bias1_apply (p : Fin 100000) (k : Fin 128) : val_main_v63 (F := Ideal) x5 (ix2 p k) = x5 (ix1 k) := by
  rw [val_main_v63_apply, val_main_v62_apply]
  exact congrArg x5 (funext fun a => Fin.ext (by match a with | ⟨0, _⟩ => rfl))
theorem obias_apply (p : Fin 100000) (q : Fin 64) : val_main_v68 (F := Ideal) x7 (ix2 p q) = x7 (ix1 q) := by
  rw [val_main_v68_apply, val_main_v67_apply]
  exact congrArg x7 (funext fun a => Fin.ext (by match a with | ⟨0, _⟩ => rfl))
theorem clip0_apply (p : Fin 100000) (k : Fin 128) : val_main_call1_v0 (F := Ideal) (ix2 p k) = 0 := by
  rw [val_main_call1_v0_apply, val_main_call1_cst_apply]
  exact Ideal.ofBits_zero_f32
theorem clip1_apply (p : Fin 100000) (k : Fin 128) : val_main_call2_v0 (F := Ideal) (ix2 p k) = 0 := by
  rw [val_main_call2_v0_apply, val_main_call2_cst_apply]
  exact Ideal.ofBits_zero_f32
theorem zeros0_apply (i : S100000x128.Idx) : val_main_v40 (F := Ideal) i = 0 := by
  rw [val_main_v40_apply, val_main_cst_9_apply]
  exact Ideal.ofBits_zero_f32
theorem zeros1_apply (i : S100000x128.Idx) : val_main_v59 (F := Ideal) i = 0 := by
  rw [val_main_v59_apply, val_main_cst_12_apply]
  exact Ideal.ofBits_zero_f32

/-! ## The edge coefficients at an entry, and the index columns -/

/-- The three start-row columns the reference builds for its row gathers are one column. -/
theorem srcCol_eq : val_main_v36 (F := Ideal) x1 = val_main_v18 (F := Ideal) x1 ∧ val_main_v55 (F := Ideal) x1 = val_main_v18 (F := Ideal) x1 :=
  ⟨rfl, rfl⟩
/-- The three target columns are one column. -/
theorem tgtCol_eq : val_main_v41 (F := Ideal) x1 = val_main_v6 (F := Ideal) x1 ∧ val_main_v60 (F := Ideal) x1 = val_main_v6 (F := Ideal) x1 :=
  ⟨rfl, rfl⟩

theorem coef0_apply (wfT) (e : Fin 1600000) (q : Fin 128) :
    val_main_v38 (F := Ideal) x1 (ix2 e q)
      = Host.gather (takeGather 100000 1600000 wfT) (val_main_v12 (F := Ideal) x1) (val_main_v18 (F := Ideal) x1) (ix1 e)
        * Host.gather (takeGather 100000 1600000 wfT) (val_main_v12 (F := Ideal) x1) (val_main_v25 (F := Ideal) x1) (ix1 e) := by
  rw [val_main_v38_apply, val_main_v30_apply, val_main_v27_apply]
  have hi : idx_main_v30 (idx_main_v38 (ix2 e q)) = ix1 e :=
    funext fun a => Fin.ext (by match a with | ⟨0, _⟩ => rfl)
  rw [hi]
  unfold val_main_v19 val_main_v26
  rfl
theorem coef1_apply (wfT) (e : Fin 1600000) (q : Fin 128) :
    val_main_v57 (F := Ideal) x1 (ix2 e q)
      = Host.gather (takeGather 100000 1600000 wfT) (val_main_v12 (F := Ideal) x1) (val_main_v18 (F := Ideal) x1) (ix1 e)
        * Host.gather (takeGather 100000 1600000 wfT) (val_main_v12 (F := Ideal) x1) (val_main_v25 (F := Ideal) x1) (ix1 e) := by
  rw [val_main_v57_apply, val_main_v49_apply, val_main_v27_apply]
  have hi : idx_main_v49 (idx_main_v57 (ix2 e q)) = ix1 e :=
    funext fun a => Fin.ext (by match a with | ⟨0, _⟩ => rfl)
  rw [hi]
  unfold val_main_v19 val_main_v26
  rfl

/-- At an edge whose target is non-negative, the normalised target is the target. -/
theorem tgt_wrap (e : Fin 1600000) (h : 0 ≤ (val_main_v6 (F := Ideal) x1 (ix2 e (0 : Fin 1))).toInt) :
    val_main_v25 (F := Ideal) x1 (ix2 e (0 : Fin 1)) = val_main_v6 (F := Ideal) x1 (ix2 e (0 : Fin 1)) := by
  have h25 : idx_main_v25 (ix2 e (0 : Fin 1)) = ix1 e := funext fun a => Fin.ext (by match a with | ⟨0, _⟩ => rfl)
  have h6 : idx_main_v6 (ix2 e (0 : Fin 1)) = ix1 e := funext fun a => Fin.ext (by match a with | ⟨0, _⟩ => rfl)
  rw [val_main_v6_apply, h6] at h
  rw [val_main_v25_apply, h25, val_main_v6_apply, h6, val_main_v24_apply, val_main_v21_apply, val_main_v20_apply,
    val_main_c_5_apply]
  generalize val_main_v3 (F := Ideal) x1 (ix1 e) = w at h ⊢
  have hc : IntOp.cmpi .slt w 0#32 = 0#1 := eq_zero_of_ne_one (by
    rw [IntOp.cmpi_slt]
    show ¬ w.toInt < 0
    omega)
  rw [hc, select_zero]

/-- The node factors as a column read at a row. -/
theorem disCol_apply (h : S100000.ShapeCasts ⟨2, ![100000, 1]⟩) (p : Fin 100000) :
    shapeCast ⟨2, ![100000, 1]⟩ (val_main_v12 (F := Ideal) x1) h (ix2 p (0 : Fin 1)) = val_main_v12 (F := Ideal) x1 (ix1 p) :=
  shapeCast_a_a1_apply (val_main_v12 (F := Ideal) x1) h p 0

end Cert.ReferenceIdeal.Stages

end
-- ==== Proof.LibRealClosure.lean ====
/-
  GENERAL LEMMAS: arrays of extended reals all of whose entries are (images of) reals stay so under the host
  operations that only move, multiply and add entries.
  • `sum_real`, `add_real`, `mul_real`: finite sums, sums and products of reals are real;
  • `scatterAdd_real`: an accumulating scatter of real updates into a real array is real, whatever the indices
    (each entry is the operand's entry plus a finite sum of update entries);
  • `mulf_real`, `gather_real`, `broadcastInDim_real`, `constant_zero_real`: an entrywise product, a gather, a
    broadcast of real arrays, and the zero scalar.
-/
import Idealize.ShloMosaic.PureOps.Ideal
import Idealize.ShloMosaic.PureOps.Ideal.Laws
import proofs.«113423_j44839458570483_2_alg».proof.Proof.LibRealImage

noncomputable section

open Idealize.ShloMosaic
open scoped BigOperators

namespace Cert.Lib.RealClosure

theorem sum_real {ι : Type*} (s : Finset ι) (f : ι → EReal) (hf : ∀ j, ∃ y : ℝ, f j = (y : EReal)) :
    ∃ y : ℝ, ∑ j ∈ s, f j = (y : EReal) := by
  choose f' hf' using hf
  exact ⟨∑ j ∈ s, f' j, by rw [Cert.Lib.RealImage.coe_sum]; exact Finset.sum_congr rfl fun j _ => hf' j⟩

theorem add_real (a b : EReal) (ha : ∃ y : ℝ, a = (y : EReal)) (hb : ∃ y : ℝ, b = (y : EReal)) : ∃ y : ℝ, a + b = (y : EReal) := by
  obtain ⟨a', rfl⟩ := ha; obtain ⟨b', rfl⟩ := hb; exact ⟨a' + b', (EReal.coe_add _ _).symm⟩

theorem mul_real (a b : EReal) (ha : ∃ y : ℝ, a = (y : EReal)) (hb : ∃ y : ℝ, b = (y : EReal)) : ∃ y : ℝ, a * b = (y : EReal) := by
  obtain ⟨a', rfl⟩ := ha; obtain ⟨b', rfl⟩ := hb; exact ⟨a' * b', (EReal.coe_mul _ _).symm⟩

/-- An accumulating scatter of real updates into a real array is real, whatever the indices. -/
theorem scatterAdd_real {s si su : Shape} (d : ScatterDims s si su) {w : ℕ} (x : FVec Ideal s .f32) (idx : IVec si w)
    (upd : FVec Ideal su .f32) (hx : ∀ i, ∃ y : ℝ, x i = (y : EReal)) (hu : ∀ j, ∃ y : ℝ, upd j = (y : EReal)) (i : s.Idx) :
    ∃ y : ℝ, Host.scatterAdd d x idx upd i = (y : EReal) := by
  simp only [Host.scatterAdd, Ideal.hostScatterAdd_def]
  unfold Ideal.hostScatterAdd
  exact add_real _ _ (hx i) (sum_real _ _ hu)

/-- A product of a gathered real array and a broadcast real array is real, entry by entry. -/
theorem mulf_real {s : Shape} (a b : FVec Ideal s .f32) (ha : ∀ j, ∃ y : ℝ, a j = (y : EReal)) (hb : ∀ j, ∃ y : ℝ, b j = (y : EReal))
    (j : s.Idx) : ∃ y : ℝ, mulf a b j = (y : EReal) :=
  mul_real _ _ (ha j) (hb j)

theorem gather_real {s si t : Shape} {w : ℕ} (d : GatherDims s si t) (x : FVec Ideal s .f32) (idx : IVec si w)
    (hx : ∀ i, ∃ y : ℝ, x i = (y : EReal)) (j : t.Idx) : ∃ y : ℝ, Host.gather d x idx j = (y : EReal) :=
  hx _

theorem broadcastInDim_real {s t : Shape} (dims : Fin s.rank → Fin t.rank) (h : s.BroadcastsInDim t dims) (x : FVec Ideal s .f32)
    (hx : ∀ i, ∃ y : ℝ, x i = (y : EReal)) (j : t.Idx) : ∃ y : ℝ, broadcastInDim t dims h x j = (y : EReal) :=
  hx _

theorem constant_zero_real (j : (⟨0, ![]⟩ : Shape).Idx) : ∃ y : ℝ, constant (F := Ideal) ⟨0, ![]⟩ .f32 0x00000000#32 j = (y : EReal) :=
  ⟨0, by show Ideal.ofBits .f32 0x00000000#32 = _; rw [Ideal.ofBits_zero_f32, EReal.coe_zero]⟩

end Cert.Lib.RealClosure

end
-- ==== Proof.GcnReal.lean ====
/-
  Arrays of reals stay arrays of reals.

  The extended reals carry the two infinities, and the distributive law fails there; the certificate's algebra is
  done on real numbers. This file says that every array the programs build from real inputs is again an array of
  reals: the three float words the programs spell (1, −1/2 and 0) denote real numbers; a splat of a real word, and
  the operations that only move entries (broadcast, reshape, transpose, gather, selection between two arrays), read
  entries that are already there; sums, products, maxima, an accumulating scatter and a product of two matrices are
  finite sums, products and maxima of reals; and a real raised to a real power is the value of the real power
  function. Last, the index normalisation "a negative index is shifted by the extent" keeps a non-negative index.
-/
import proofs.«113423_j44839458570483_2_alg».proof.Proof.GcnSpec
import proofs.«113423_j44839458570483_2_alg».proof.Proof.LibRealClosure
import proofs.«113423_j44839458570483_2_alg».proof.Proof.LibPlainDot

noncomputable section

open scoped BigOperators

namespace Cert.Gcn

open Idealize.ShloMosaic Idealize.ShloMosaic.ValueIdx

/-! ## The three float words the programs spell -/

theorem one_word_real : ∃ y : ℝ, Ideal.ofBits .f32 0x3F800000#32 = (y : EReal) := by
  refine ⟨1, ?_⟩
  simp [Ideal.ofBits, Ideal.ieee, -EReal.coe_mul]; norm_num
theorem neg_half_word_real : ∃ y : ℝ, Ideal.ofBits .f32 0xBF000000#32 = (y : EReal) := by
  refine ⟨-(1 / 2), ?_⟩
  simp [Ideal.ofBits, Ideal.ieee, -EReal.coe_mul]; norm_num
theorem zero_word_real : ∃ y : ℝ, Ideal.ofBits .f32 0x00000000#32 = (y : EReal) := by
  exact ⟨0, by rw [Ideal.ofBits_zero_f32, EReal.coe_zero]⟩

/-! ## Arrays of reals stay arrays of reals -/

theorem constant_real (s : Shape) (b : BitVec 32) (hb : ∃ y : ℝ, Ideal.ofBits .f32 b = (y : EReal)) :
    RealArr (constant (F := Ideal) s .f32 b) := by
  -- every entry of a splat is the one word
  exact fun _ => hb
theorem broadcastInDim_real {s t : Shape} (dims : Fin s.rank → Fin t.rank) (h : s.BroadcastsInDim t dims)
    (x : s.Idx → EReal) (hx : RealArr x) : RealArr (broadcastInDim t dims h x) := by
  -- an entry of the broadcast is an entry of the operand
  exact fun _ => hx _
theorem shapeCast_real {s t : Shape} (x : s.Idx → EReal) (h : s.ShapeCasts t) (hx : RealArr x) : RealArr (shapeCast t x h) := by
  -- an entry of the reshaped array is an entry of the operand
  exact fun _ => hx _
theorem transpose_real {s t : Shape} (perm : List (Fin s.rank)) (x : s.Idx → EReal) (h : s.Transposes perm t) (hx : RealArr x) :
    RealArr (transpose t perm x h) := by
  -- an entry of the transposed array is an entry of the operand
  exact fun _ => hx _
theorem gather_real {s si t : Shape} {w : Nat} (d : GatherDims s si t) (x : s.Idx → EReal) (idx : IVec si w) (hx : RealArr x) :
    RealArr (Host.gather d x idx) := by
  -- a gathered entry is an entry of the operand
  exact fun _ => hx _
theorem scatterAdd_real {s si su : Shape} {w : Nat} (d : ScatterDims s si su) (x : FVec Ideal s .f32) (idx : IVec si w)
    (upd : FVec Ideal su .f32) (hx : RealArr x) (hu : RealArr upd) : RealArr (Host.scatterAdd d x idx upd) := by
  -- an entry is the operand's entry plus a finite sum of update entries
  exact fun i => Cert.Lib.RealClosure.scatterAdd_real d x idx upd hx hu i
theorem mulf_real {s : Shape} (a b : FVec Ideal s .f32) (ha : RealArr a) (hb : RealArr b) : RealArr (mulf a b) := by
  exact fun j => Cert.Lib.RealClosure.mul_real _ _ (ha j) (hb j)
theorem addf_real {s : Shape} (a b : FVec Ideal s .f32) (ha : RealArr a) (hb : RealArr b) : RealArr (addf a b) := by
  exact fun j => Cert.Lib.RealClosure.add_real _ _ (ha j) (hb j)
theorem maximumf_real {s : Shape} (a b : FVec Ideal s .f32) (ha : RealArr a) (hb : RealArr b) : RealArr (maximumf a b) := by
  -- the larger of two reals is a real
  intro j
  obtain ⟨a', ha'⟩ := ha j
  obtain ⟨b', hb'⟩ := hb j
  exact ⟨max a' b', by rw [maximumf_apply, ha', hb', Cert.Lib.RealImage.coe_max]⟩
theorem select_real {s : Shape} (c : IVec s 1) (a b : s.Idx → EReal) (ha : RealArr a) (hb : RealArr b) : RealArr (select c a b) := by
  -- a selected entry is an entry of one of the two arrays
  intro i
  rw [select_apply]
  unfold Scalar.select
  split
  · exact ha i
  · exact hb i
theorem powf_real {s : Shape} (a b : FVec Ideal s .f32) (ha : RealArr a) (hb : RealArr b) : RealArr (Host.powf a b) := by
  -- a real to a real power is the real power function's value, a real
  intro i
  obtain ⟨a', ha'⟩ := ha i
  obtain ⟨b', hb'⟩ := hb i
  refine ⟨Real.rpow a' b', ?_⟩
  show Ideal.pow (a i) (b i) = _
  rw [ha', hb', Ideal.pow_coe_coe]
theorem hostDot_real {M K N : Nat} (D : DotDims ⟨2, ![M, K]⟩ ⟨2, ![K, N]⟩ ⟨2, ![M, N]⟩) (hD : D = DotDims.plain M K N)
    (prec : Option ContractPrecision) (l : FVec Ideal ⟨2, ![M, K]⟩ .f32) (r : FVec Ideal ⟨2, ![K, N]⟩ .f32)
    (hl : RealArr l) (hr : RealArr r) : RealArr (Host.dotGeneral D prec l r) := by
  -- an entry of the product is a finite sum of products of entries
  intro j
  rw [Idealize.ShloMosaic.PlainDot.hostDot_apply D hD prec l r j]
  exact Cert.Lib.RealClosure.sum_real _ _ fun k => Cert.Lib.RealClosure.mul_real _ _ (hl _) (hr _)

/-! ## The index normalisation -/

/-- A non-negative index is kept by the normalisation "a negative index is shifted by the extent". -/
theorem wrap_of_nonneg {s : Shape} (v z n : IVec s 32) (i : s.Idx) (hz : z i = 0#32) (hv : 0 ≤ (v i).toInt) :
    select (cmpi .slt v z) (addi v n) v i = v i := by
  -- "v i < 0" is false, so the comparison word is 0 and the selection keeps v i
  have hlt : (v i).slt (z i) = false := by
    rw [hz]
    refine Bool.eq_false_iff.mpr fun h => ?_
    have := BitVec.slt_iff_toInt_lt.mp h
    rw [BitVec.toInt_zero] at this
    omega
  have hc : cmpi .slt v z i = 0#1 := by
    show BitVec.ofBool ((v i).slt (z i)) = 0#1
    rw [hlt]; rfl
  rw [select_apply, hc]
  unfold Scalar.select
  rw [if_neg (by decide)]

end Cert.Gcn

end
-- ==== Proof.Bridge.lean ====
/-
  The two programs compute one function.

  Both sides know the same node factors `dis` (the first host lines of the two programs are the same operations), the
  same source and target columns, and the same dense products. They differ in ONE place per layer: the reference
  multiplies every gathered row by its edge's coefficient dis(src e) · dis(tgt e) and adds the rows up at their targets;
  the kernel scales the table by dis once before the gather and multiplies the aggregate at node v by dis v once after
  the scatter. The layer's law (the edge-sum file) says these are equal entry by entry when the table and the factors are
  real, and the inputs' finiteness makes every table real: sums of products of reals, a power of a real degree, a
  maximum with zero.

  So, layer by layer: the kernel's activation max(dis v · agg v k + b k, 0) is the reference's relu(agg' v k + b k);
  hence the next dense product agrees, hence the next scaled table is the next product times dis; and after the second
  layer the last product plus the output bias is the reference's result.
-/
import proofs.«113423_j44839458570483_2_alg».proof.Proof.KernelFold
import proofs.«113423_j44839458570483_2_alg».proof.Proof.RefStages
import proofs.«113423_j44839458570483_2_alg».proof.Proof.EdgeSum
import proofs.«113423_j44839458570483_2_alg».proof.Proof.GcnReal
import proofs.«113423_j44839458570483_2_alg».proof.Proof.LibKeepdims
import Idealize.ShloMosaic.Lib.ValueLayout

noncomputable section

open scoped BigOperators

namespace Cert.Bridge

open Cert.ReferenceIdeal.Read Cert.ReferenceIdeal.Stages Cert.KernelIdeal.FoldValue Cert.Gcn
open Idealize.ShloMosaic Idealize.ShloMosaic.ValueIdx

variable (x0 : FVec Ideal Cert.ReferenceIdeal.S100000x128 .f32) (x1 : IVec Cert.ReferenceIdeal.S2x1600000 32) (x2 : FVec Ideal Cert.ReferenceIdeal.S128x128 .f32)
  (x3 : FVec Ideal Cert.ReferenceIdeal.S128 .f32) (x4 : FVec Ideal Cert.ReferenceIdeal.S128x128 .f32) (x5 : FVec Ideal Cert.ReferenceIdeal.S128 .f32)
  (x6 : FVec Ideal Cert.ReferenceIdeal.S128x64 .f32) (x7 : FVec Ideal Cert.ReferenceIdeal.S64 .f32)

/-! ## Every table the reference builds is real -/

theorem deg_real : RealArr (val_main_v7 (F := Ideal) x1) := by
  unfold val_main_v7 val_main_v5 val_main_v4 val_main_cst_0 val_main_cst
  exact scatterAdd_real _ _ _ _ (broadcastInDim_real _ _ _ (constant_real _ _ zero_word_real))
    (broadcastInDim_real _ _ _ (constant_real _ _ one_word_real))

/-- The node factors are real: a real power of a real degree, or zero. -/
theorem dis_real : RealArr (val_main_v12 (F := Ideal) x1) := by
  unfold val_main_v12
  refine select_real _ _ _ ?_ ?_
  · unfold val_main_v11 val_main_v10 val_main_cst_2
    exact powf_real _ _ (deg_real x1) (broadcastInDim_real _ _ _ (constant_real _ _ neg_half_word_real))
  · unfold val_main_call0_v1 val_main_call0_v0 val_main_cst_3
    exact broadcastInDim_real _ _ _ (constant_real _ _ zero_word_real)

theorem coef_real : RealArr (val_main_v27 (F := Ideal) x1) := by
  unfold val_main_v27 val_main_v19 val_main_v26
  exact mulf_real _ _ (gather_real _ _ _ (dis_real x1)) (gather_real _ _ _ (dis_real x1))

theorem coef0_real : RealArr (val_main_v38 (F := Ideal) x1) := by
  unfold val_main_v38 val_main_v30
  exact broadcastInDim_real _ _ _ (broadcastInDim_real _ _ _ (coef_real x1))

theorem coef1_real : RealArr (val_main_v57 (F := Ideal) x1) := by
  unfold val_main_v57 val_main_v49
  exact broadcastInDim_real _ _ _ (broadcastInDim_real _ _ _ (coef_real x1))

section
variable (h0 : RealArr x0) (h2 : RealArr x2) (h3 : RealArr x3) (h4 : RealArr x4)
include h0 h2

/-- The first product is real. -/
theorem tab0_real : RealArr (val_main_v29 (F := Ideal) x0 x2) := by
  unfold val_main_v29 val_main_v28
  exact hostDot_real _ rfl _ _ _ h0 (transpose_real _ _ _ h2)

include h3

/-- The first activation is real. -/
theorem act0_real : RealArr (val_main_v46 (F := Ideal) x0 x1 x2 x3) := by
  unfold val_main_v46 val_main_v45 val_main_v44 val_main_v43 val_main_call1_v0 val_main_call1_cst val_main_v42 val_main_v40
    val_main_cst_9 val_main_v39 val_main_v37
  exact maximumf_real _ _
    (addf_real _ _
      (scatterAdd_real _ _ _ _ (broadcastInDim_real _ _ _ (constant_real _ _ zero_word_real))
        (mulf_real _ _ (coef0_real x1) (gather_real _ _ _ (tab0_real x0 x2 h0 h2))))
      (broadcastInDim_real _ _ _ (broadcastInDim_real _ _ _ h3)))
    (broadcastInDim_real _ _ _ (constant_real _ _ zero_word_real))

include h4

/-- The second product is real. -/
theorem tab1_real : RealArr (val_main_v48 (F := Ideal) x0 x1 x2 x3 x4) := by
  unfold val_main_v48 val_main_v47
  exact hostDot_real _ rfl _ _ _ (act0_real x0 x1 x2 x3 h0 h2 h3) (transpose_real _ _ _ h4)

end

/-! ## The kernel's stages are the reference's -/

/-- One aggregation of the kernel, spelt with the reference's columns and the row records of the edge-sum file. -/
theorem aggK_eq (T : FVec Ideal Cert.ReferenceIdeal.S100000x128 .bf16) :
    aggK x1 T = Host.scatterAdd (F := Ideal) (φ := .f32) (rowsScatter 100000 1600000 128 Cert.ReferenceIdeal.Facts₀.scatter_S100000x128_S1600000x1_S1600000x128_1_0_0_1_wf) (val_main_v40 (F := Ideal)) (val_main_v6 (F := Ideal) x1)
      (Host.gather (rowsGather 100000 1600000 128 Cert.ReferenceIdeal.Facts₀.gather_S100000x128_S1600000x1_S1600000x128_1_0_n_n_0_1_1128_wf) T (val_main_v18 (F := Ideal) x1)) := rfl

/-- The node factors as a column, read at a row. -/
theorem disColK_apply (p : Fin 100000) : disColK x1 (ix2 p (0 : Fin 1)) = (val_main_v12 (F := Ideal) x1) (ix1 p) :=
  disCol_apply x1 _ p

/-! ## One layer -/

/-- ONE LAYER. For a real table `H` whose scaled copy `T` the kernel gathers, the kernel's activation at `(p, k)` —
    the aggregate of `T` scaled by the node factor, shifted by the bias, clipped at zero — is the clipped, shifted
    aggregate of the rows of `H` each multiplied by its edge's coefficient. -/
theorem layer_act (H : FVec Ideal Cert.ReferenceIdeal.S100000x128 .f32) (hH : RealArr H) (T : FVec Ideal Cert.ReferenceIdeal.S100000x128 .bf16)
    (hT : ∀ (p : Fin 100000) (q : Fin 128), T (ix2 p q) = H (ix2 p q) * (val_main_v12 (F := Ideal) x1) (ix1 p))
    (nrm : FVec Ideal Cert.ReferenceIdeal.S1600000x128 .f32)
    (hn : ∀ (e : Fin 1600000) (q : Fin 128), nrm (ix2 e q)
      = Host.gather (takeGather 100000 1600000 Cert.ReferenceIdeal.Facts₀.gather_S100000_S1600000x1_S1600000_n_0_n_n_0_1_1_wf) (val_main_v12 (F := Ideal) x1) (val_main_v18 (F := Ideal) x1) (ix1 e)
        * Host.gather (takeGather 100000 1600000 Cert.ReferenceIdeal.Facts₀.gather_S100000_S1600000x1_S1600000_n_0_n_n_0_1_1_wf) (val_main_v12 (F := Ideal) x1) (val_main_v25 (F := Ideal) x1) (ix1 e))
    (b : FVec Ideal Cert.ReferenceIdeal.S128 .f32) (p : Fin 100000) (k : Fin 128) :
    actAt (N := 100000) (K := 128) (aggK x1 T) (disColK x1) (shapeCast Cert.KernelIdeal.S1x128 b Cert.KernelIdeal.Gen.shapeCasts_S128_S1x128) p k
      = max (Host.scatterAdd (F := Ideal) (φ := .f32) Cert.ReferenceIdeal.scatter_S100000x128_S1600000x1_S1600000x128_1_0_0_1 (val_main_v40 (F := Ideal)) (val_main_v6 (F := Ideal) x1)
          (mulf (F := Ideal) (φ := .f32) nrm (Host.gather Cert.ReferenceIdeal.gather_S100000x128_S1600000x1_S1600000x128_1_0_n_n_0_1_1128 H (val_main_v18 (F := Ideal) x1))) (ix2 p k) + b (ix1 k)) 0 := by
  have hc := conv_factor (N := 100000) (E := 1600000) (C := 128) (by norm_num) Cert.ReferenceIdeal.Facts₀.scatter_S100000x128_S1600000x1_S1600000x128_1_0_0_1_wf Cert.ReferenceIdeal.Facts₀.gather_S100000x128_S1600000x1_S1600000x128_1_0_n_n_0_1_1128_wf Cert.ReferenceIdeal.Facts₀.gather_S100000_S1600000x1_S1600000_n_0_n_n_0_1_1_wf
    (val_main_v12 (F := Ideal) x1) H T (val_main_v40 (F := Ideal)) nrm (val_main_v18 (F := Ideal) x1) (val_main_v25 (F := Ideal) x1) (val_main_v6 (F := Ideal) x1)
    (dis_real x1) hH zeros0_apply hT hn (fun e => tgt_wrap x1 e) p k
  unfold actAt
  rw [disColK_apply, shapeCast_a_1a_apply, aggK_eq, hc]
  rfl

/-! ## The first layer -/

/-- The kernel's first table is the first product scaled by the node factors. -/
theorem tab0_apply (p : Fin 100000) (q : Fin 128) :
    tab0 x0 x1 x2 (ix2 p q) = (val_main_v29 (F := Ideal) x0 x2) (ix2 p q) * (val_main_v12 (F := Ideal) x1) (ix1 p) := by
  rw [dot0_apply, ← disColK_apply]
  rfl

section
variable (h0 : RealArr x0) (h2 : RealArr x2) (h3 : RealArr x3) (h4 : RealArr x4)
include h0 h2

/-- The kernel's first activation is the reference's. -/
theorem act0_eq (p : Fin 100000) (k : Fin 128) :
    actAt (N := 100000) (K := 128) (aggK x1 (tab0 x0 x1 x2)) (disColK x1) (shapeCast Cert.KernelIdeal.S1x128 x3 Cert.KernelIdeal.Gen.shapeCasts_S128_S1x128) p k
      = (val_main_v46 (F := Ideal) x0 x1 x2 x3) (ix2 p k) := by
  rw [layer_act x1 (val_main_v29 (F := Ideal) x0 x2) (tab0_real x0 x2 h0 h2) (tab0 x0 x1 x2) (tab0_apply x0 x1 x2) (val_main_v38 (F := Ideal) x1)
    (coef0_apply x1 Cert.ReferenceIdeal.Facts₀.gather_S100000_S1600000x1_S1600000_n_0_n_n_0_1_1_wf) x3 p k]
  rw [val_main_v46_apply, val_main_v45_apply, clip0_apply, bias0_apply]
  unfold val_main_v42 val_main_v39 val_main_v37
  rw [(srcCol_eq x1).1, (tgtCol_eq x1).1]
  rfl

include h3

/-- The kernel's second table is the second product scaled by the node factors. -/
theorem tab1_apply (p : Fin 100000) (q : Fin 128) :
    tab1 x0 x1 x2 x3 x4 (ix2 p q) = (val_main_v48 (F := Ideal) x0 x1 x2 x3 x4) (ix2 p q) * (val_main_v12 (F := Ideal) x1) (ix1 p) := by
  rw [dot1_apply, ← disColK_apply]
  show dotAt (N := 100000) (K := 128) (C := 128)
      (actArr (aggK x1 (tab0 x0 x1 x2)) (disColK x1) (shapeCast Cert.KernelIdeal.S1x128 x3 Cert.KernelIdeal.Gen.shapeCasts_S128_S1x128))
      (transpose Cert.KernelIdeal.S128x128 [1, 0] x4 Cert.KernelIdeal.Gen.transposes_S128x128_S128x128_1_0) p q * disColK x1 (ix2 p (0 : Fin 1)) = _
  refine congrArg (· * disColK x1 (ix2 p (0 : Fin 1))) ?_
  unfold dotAt
  refine Finset.sum_congr rfl fun k _ => ?_
  refine congrArg₂ (· * ·) ?_ rfl
  exact act0_eq x0 x1 x2 x3 h0 h2 p k

include h4

/-- The kernel's second activation is the reference's. -/
theorem act1_eq (p : Fin 100000) (k : Fin 128) :
    actAt (N := 100000) (K := 128) (aggK x1 (tab1 x0 x1 x2 x3 x4)) (disColK x1) (shapeCast Cert.KernelIdeal.S1x128 x5 Cert.KernelIdeal.Gen.shapeCasts_S128_S1x128) p k
      = (val_main_v65 (F := Ideal) x0 x1 x2 x3 x4 x5) (ix2 p k) := by
  rw [layer_act x1 (val_main_v48 (F := Ideal) x0 x1 x2 x3 x4) (tab1_real x0 x1 x2 x3 x4 h0 h2 h3 h4) (tab1 x0 x1 x2 x3 x4)
    (tab1_apply x0 x1 x2 x3 x4 h0 h2 h3) (val_main_v57 (F := Ideal) x1) (coef1_apply x1 Cert.ReferenceIdeal.Facts₀.gather_S100000_S1600000x1_S1600000_n_0_n_n_0_1_1_wf) x5 p k]
  rw [val_main_v65_apply, val_main_v64_apply, clip1_apply, bias1_apply]
  unfold val_main_v61 val_main_v58 val_main_v56
  rw [(srcCol_eq x1).2, (tgtCol_eq x1).2]
  rfl

/-! ## The result -/

/-- THE BRIDGE: under finite inputs the kernel's closed term is the reference's last stage. -/
theorem out_eq : outK x0 x1 x2 x3 x4 x5 x6 x7 = (val_main_v69 (F := Ideal) x0 x1 x2 x3 x4 x5 x6 x7) := by
  funext j
  obtain ⟨p, q, rfl⟩ : ∃ (p : Fin 100000) (q : Fin 64), j = ix2 p q := ⟨j 0, j 1, eq_ix2 j⟩
  rw [val_main_v69_apply, dot2_apply, obias_apply]
  show dotAt (N := 100000) (K := 128) (C := 64)
      (actArr (aggK x1 (tab1 x0 x1 x2 x3 x4)) (disColK x1) (shapeCast Cert.KernelIdeal.S1x128 x5 Cert.KernelIdeal.Gen.shapeCasts_S128_S1x128)) x6 p q
      + shapeCast Cert.KernelIdeal.S1x64 x7 Cert.KernelIdeal.Gen.shapeCasts_S64_S1x64 (ix2 (0 : Fin 1) q) = _
  rw [shapeCast_a_1a_apply]
  refine congrArg (· + x7 (ix1 q)) ?_
  unfold dotAt
  refine Finset.sum_congr rfl fun k _ => ?_
  refine congrArg₂ (· * ·) ?_ rfl
  exact act1_eq x0 x1 x2 x3 x4 x5 h0 h2 h3 h4 p k

end

end Cert.Bridge

end
-- ==== Proof.lean ====
/-
  The certificate of a two-layer graph convolution whose kernel moves the node factors out of the edge sums.

  The reference multiplies every row gathered along an edge by the edge's coefficient, dis(source) · dis(target), before
  adding the rows up at their targets; the kernel scales the node table by dis once before the gather and the aggregate
  by dis once after the scatter-add, in three kernel regions with the gathers and scatter-adds on the host between them.
  On the extended reals the two agree because, under the precondition that the float inputs are finite, every table
  involved is real, and a real factor distributes over a finite sum of reals.

  The pieces, one module each: the three regions' output arrays as whole-array functions (Region0/1/2), the result
  array read off the fold of the program's segments (KernelRun, KernelFold), the reference's stages at coordinates
  (RefStages, over its run read back), the layer's law on sums along edges (EdgeSum), real entries staying real
  (GcnReal, FiniteInputs), and the bridge that joins the two sides layer by layer (Bridge). The three frames are the
  generated ones (the reference's is its run with the result dropped), and the idealization rewrote nothing.
-/
import proofs.«113423_j44839458570483_2_alg».proof.Defs
import proofs.«113423_j44839458570483_2_alg».proof.Proof.Gen.Kernel
import proofs.«113423_j44839458570483_2_alg».proof.Proof.Gen.Kernel.Frame
import proofs.«113423_j44839458570483_2_alg».proof.Proof.Gen.KernelIdeal
import proofs.«113423_j44839458570483_2_alg».proof.Proof.Gen.KernelIdeal.Frame
import proofs.«113423_j44839458570483_2_alg».proof.Proof.Gen.ReferenceIdeal
import proofs.«113423_j44839458570483_2_alg».proof.Proof.Gen.Pre_finite_inputs
import proofs.«113423_j44839458570483_2_alg».proof.Proof.RefRun
import proofs.«113423_j44839458570483_2_alg».proof.Proof.RefReadP
import proofs.«113423_j44839458570483_2_alg».proof.Proof.KernelRun
import proofs.«113423_j44839458570483_2_alg».proof.Proof.KernelFold
import proofs.«113423_j44839458570483_2_alg».proof.Proof.FiniteInputs
import proofs.«113423_j44839458570483_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, with finite float inputs, both programs end with the same result array:
    the kernel's is the closed term read off its segments, the reference's its last stage, and the bridge equates them. -/
theorem algebraic : Cert.algebraic_KernelIdeal_ReferenceIdeal := by
  intro m ρ m' ρ' hpre hagree
  refine ⟨fun c => Cert.KernelIdeal.FoldValue.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.FoldValue.at8_out m ρ c), (h c).2⟩)
      (Cert.KernelIdeal.RunValue.run_result m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7⟩ := hagree c
    obtain ⟨r0, r2, r3, r4, r5, r6, r7⟩ := Cert.Gcn.real_of_pre _ _ _ _ _ _ _ _ (hpre c)
    rw [(h c).1, Cert.ReferenceIdeal.Read.val_main_v69_eq, a0, a1, a2, a3, a4, a5, a6, a7]
    exact (Cert.Bridge.out_eq _ _ _ _ _ _ _ _ r0 r2 r3 r4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
